-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x9 : Shape := ⟨2, ![4000000, 9]⟩
abbrev S12288x3 : Shape := ⟨2, ![12288, 3]⟩
abbrev S12288x9 : Shape := ⟨2, ![12288, 9]⟩
abbrev S12288x1 : Shape := ⟨2, ![12288, 1]⟩
abbrev S12288 : Shape := ⟨1, ![12288]⟩
abbrev S4000000x3x3 : Shape := ⟨3, ![4000000, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x9, .f32⟩
  | .hbm, ⟨2, _⟩ => ⟨S4000000x3x3, .f32⟩
  | .local _ .vmem, ⟨0, _⟩ => ⟨S12288x3, .f32⟩
  | .local _ .vmem, ⟨1, _⟩ => ⟨S12288x3, .f32⟩
  | .local _ .vmem, ⟨2, _⟩ => ⟨S12288x9, .f32⟩
  | .local _ .vmem, ⟨3, _⟩ => ⟨S12288x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![326], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12288x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S12288x3_S12288x3_0_0 : ∀ a, (![0, 0] : Fin 2 → Nat) a + S12288x3.size a ≤ S12288x3.size a
  h_S12288x3 : 0 < S12288x3.numel
  slices_S12288x3_o0_0_S12288x1 : S12288x3.Slices ![0, 0] S12288x1
  shapeCasts_S12288x1_S12288 : S12288x1.ShapeCasts S12288
  slices_S12288x3_o0_1_S12288x1 : S12288x3.Slices ![0, 1] S12288x1
  slices_S12288x3_o0_2_S12288x1 : S12288x3.Slices ![0, 2] S12288x1
  shapeCasts_S12288_S12288x1 : S12288.ShapeCasts S12288x1
  concatenates_S12288x1_S12288x1_S12288x1_S12288x1_S12288x1_S12288x1_S12288x1_S12288x1_S12288x1_S12288x9_d1 : Shape.Concatenates [S12288x1, S12288x1, S12288x1, S12288x1, S12288x1, S12288x1, S12288x1, S12288x1, S12288x1] S12288x9 1
  inb_S12288x9_S12288x9_0_0 : ∀ a, (![0, 0] : Fin 2 → Nat) a + S12288x9.size a ≤ S12288x9.size a
  h_S12288x9 : 0 < S12288x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12288x3.size a < S4000000x3.size a
  hwx0_0 : ∀ i : grid0.Coords, EltTy.bits .f32 = 32 ∨ (Rect.unit (s := S4000000x3) (fun a => cc0_transform_0 i a * S12288x3.size a) (fun a => (Pipeline.Clip.of (cc0_transform_0 i a) (S12288x3.size a) (S4000000x3.size a)).extent (S12288x3.size a)) fun a => Pipeline.Clip.inb (Pipeline.Clip.ok_of (hstart0_0 i a))).WholeWords (EltTy.packing .f32)
  hwxs0_0 : ∀ i : grid0.Coords, EltTy.bits .f32 = 32 ∨ (Rect.unit (s := S12288x3) (fun _ => 0) (fun a => (Pipeline.Clip.of (cc0_transform_0 i a) (S12288x3.size a) (S4000000x3.size a)).extent (S12288x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12288x9.size a < S4000000x9.size a
  hwx0_1 : ∀ i : grid0.Coords, EltTy.bits .f32 = 32 ∨ (Rect.unit (s := S4000000x9) (fun a => cc0_transform_1 i a * S12288x9.size a) (fun a => (Pipeline.Clip.of (cc0_transform_1 i a) (S12288x9.size a) (S4000000x9.size a)).extent (S12288x9.size a)) fun a => Pipeline.Clip.inb (Pipeline.Clip.ok_of (hstart0_1 i a))).WholeWords (EltTy.packing .f32)
  hwxs0_1 : ∀ i : grid0.Coords, EltTy.bits .f32 = 32 ∨ (Rect.unit (s := S12288x9) (fun _ => 0) (fun a => (Pipeline.Clip.of (cc0_transform_1 i a) (S12288x9.size a) (S4000000x9.size a)).extent (S12288x9.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S12288x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S12288x9.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩
abbrev S3x3 : Shape := ⟨2, ![3, 3]⟩
abbrev S4000000x1x1 : Shape := ⟨3, ![4000000, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S_, .f32⟩
  | .hbm, ⟨2, _⟩ => ⟨S4000000x3, .f32⟩
  | .hbm, ⟨3, _⟩ => ⟨S4000000x3, .f32⟩
  | .hbm, ⟨4, _⟩ => ⟨S4000000x3, .f32⟩
  | .hbm, ⟨5, _⟩ => ⟨S_, .f32⟩
  | .hbm, ⟨6, _⟩ => ⟨S4000000, .f32⟩
  | .hbm, ⟨7, _⟩ => ⟨S4000000x1, .f32⟩
  | .hbm, ⟨8, _⟩ => ⟨S4000000x1, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S4000000x1, .f32⟩
  | .hbm, ⟨19, _⟩ => ⟨S4000000x1, .f32⟩
  | .hbm, ⟨20, _⟩ => ⟨S4000000x1, .f32⟩
  | .hbm, ⟨21, _⟩ => ⟨S4000000x3, .f32⟩
  | .hbm, ⟨22, _⟩ => ⟨S4000000, .f32⟩
  | .hbm, ⟨23, _⟩ => ⟨S4000000x1, .f32⟩
  | .hbm, ⟨24, _⟩ => ⟨S4000000x1, .f32⟩
  | .hbm, ⟨25, _⟩ => ⟨S4000000x1, .f32⟩
  | .hbm, ⟨26, _⟩ => ⟨S4000000x3, .f32⟩
  | .hbm, ⟨27, _⟩ => ⟨S4000000, .f32⟩
  | .hbm, ⟨28, _⟩ => ⟨S4000000x1, .f32⟩
  | .hbm, ⟨29, _⟩ => ⟨S4000000x1, .f32⟩
  | .hbm, ⟨30, _⟩ => ⟨S4000000x1, .f32⟩
  | .hbm, ⟨31, _⟩ => ⟨S4000000x3, .f32⟩
  | .hbm, ⟨32, _⟩ => ⟨S4000000x1x3, .f32⟩
  | .hbm, ⟨33, _⟩ => ⟨S4000000x1x3, .f32⟩
  | .hbm, ⟨34, _⟩ => ⟨S4000000x1x3, .f32⟩
  | .hbm, ⟨35, _⟩ => ⟨S4000000x3x3, .f32⟩
  | .hbm, ⟨36, _⟩ => ⟨S4000000x3x3, .f32⟩
  | .hbm, ⟨37, _⟩ => ⟨S4000000x1, .f32⟩
  | .hbm, ⟨38, _⟩ => ⟨S4000000x1, .f32⟩
  | .hbm, ⟨39, _⟩ => ⟨S4000000x1, .f32⟩
  | .hbm, ⟨40, _⟩ => ⟨S_, .f32⟩
  | .hbm, ⟨41, _⟩ => ⟨S4000000x1, .f32⟩
  | .hbm, ⟨42, _⟩ => ⟨S4000000x1, .f32⟩
  | .hbm, ⟨43, _⟩ => ⟨S4000000x1, .f32⟩
  | .hbm, ⟨44, _⟩ => ⟨S_, .f32⟩
  | .hbm, ⟨45, _⟩ => ⟨S4000000x1, .f32⟩
  | .hbm, ⟨46, _⟩ => ⟨S4000000x1, .f32⟩
  | .hbm, ⟨47, _⟩ => ⟨S4000000x1, .f32⟩
  | .hbm, ⟨48, _⟩ => ⟨S3x3, .i32⟩
  | .hbm, ⟨49, _⟩ => ⟨S3x3, .i32⟩
  | .hbm, ⟨50, _⟩ => ⟨S_, .i32⟩
  | .hbm, ⟨51, _⟩ => ⟨S3x3, .i32⟩
  | .hbm, ⟨52, _⟩ => ⟨S3x3, .i32⟩
  | .hbm, ⟨53, _⟩ => ⟨S3x3, .i1⟩
  | .hbm, ⟨54, _⟩ => ⟨S3x3, .f32⟩
  | .hbm, ⟨55, _⟩ => ⟨S4000000x3x3, .f32⟩
  | .hbm, ⟨56, _⟩ => ⟨S4000000x1x1, .f32⟩
  | .hbm, ⟨57, _⟩ => ⟨S4000000x3x3, .f32⟩
  | .hbm, ⟨58, _⟩ => ⟨S4000000x3x3, .f32⟩
  | .hbm, ⟨59, _⟩ => ⟨S4000000x3x3, .f32⟩
  | .hbm, ⟨60, _⟩ => ⟨S4000000x1x1, .f32⟩
  | .hbm, ⟨61, _⟩ => ⟨S4000000x3x3, .f32⟩
  | .hbm, ⟨62, _⟩ => ⟨S4000000x3x3, .f32⟩
  | .hbm, ⟨63, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_2 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x3_S4000000_d1 : S4000000x3.ReducesTo [1] S4000000
  h_S_ : 0 < S_.numel
  bcast_S4000000_S4000000x1_0 : S4000000.BroadcastsInDim S4000000x1 (![0] : Fin 1 → Fin S4000000x1.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S_S4000000x1 : S_.BroadcastsInDim S4000000x1 (![] : Fin 0 → Fin S4000000x1.rank)
  bcast_S_S3x3 : S_.BroadcastsInDim S3x3 (![] : Fin 0 → Fin S3x3.rank)
  bcast_S3x3_S4000000x3x3_1_2 : S3x3.BroadcastsInDim S4000000x3x3 (![1, 2] : Fin 2 → Fin S4000000x3x3.rank)
  bcast_S4000000x1_S4000000x1x1_0_1 : S4000000x1.BroadcastsInDim S4000000x1x1 (![0, 1] : Fin 2 → Fin S4000000x1x1.rank)
  bcast_S4000000x1x1_S4000000x3x3_0_1_2 : S4000000x1x1.BroadcastsInDim S4000000x3x3 (![0, 1, 2] : Fin 3 → Fin S4000000x3x3.rank)
  dot_S4000000x3x3_S4000000x3x3_S4000000x3x3_2_1_1_2_0_0_wf : DotDims.WF S4000000x3x3 S4000000x3x3 S4000000x3x3 [2] [1] [1] [2] [0] [0]

variable [Facts₀]

def dot_S4000000x3x3_S4000000x3x3_S4000000x3x3_2_1_1_2_0_0 : DotDims S4000000x3x3 S4000000x3x3 S4000000x3x3 where
  lhsContracting := [2]
  rhsContracting := [1]
  lhsNonContracting := [1]
  rhsNonContracting := [2]
  lhsBatch := [0]
  rhsBatch := [0]
  wf := dot_S4000000x3x3_S4000000x3x3_S4000000x3x3_2_1_1_2_0_0_wf

class Facts : Prop extends Facts₀ where

variable [Facts]
-- ==== Proof.Spec.lean ====
/-
  The specification both programs are compared with, one row at a time.

  A row of the input is three numbers a, b, c. Both programs shift it by the same small constant ε to
  (x, y, z) = (a + ε, b + ε, c + ε), form s = x² + y² + z² and θ = √s, and from them three coefficients
      A = sin θ / θ,   B = (1 - cos θ) / s,   C = (1 - A) / s,
  and answer the 3×3 matrix  I + B·K + C·K²,  K the skew-symmetric matrix of (x, y, z):
      K = [[0, -z, y], [z, 0, -x], [-y, x, 0]].
  The kernel spells the nine entries out (`kerRow`: the quotients through ONE reciprocal r = 1/s, θ⁻¹ as θ·r,
  K² entry by entry, a negation as 0 - ·); the reference forms K, multiplies it with itself and divides directly
  (`refEntry`). `kerRow` is written for every float instance, entry for entry in the kernel's own order of
  operations; `refEntry` for the extended reals.
-/
import Idealize.ShloMosaic.PureOps.Ideal

noncomputable section

open scoped BigOperators

namespace Cert.Spec

open Idealize.ShloMosaic

section AnyInstance
variable {F : FTy → Type} [FloatOps F]

/-- The kernel's nine entries of one row, row-major, from the row's three inputs. -/
def kerRow (a b c : F .f32) : Fin 9 → F .f32 :=
  let eps : F .f32 := FloatOps.ofBits .f32 0x2EDBE6FF#32
  let one : F .f32 := FloatOps.ofBits .f32 0x3F800000#32
  let zero : F .f32 := FloatOps.ofBits .f32 0x00000000#32
  let x := FloatOps.addf a eps
  let y := FloatOps.addf b eps
  let z := FloatOps.addf c eps
  let s := FloatOps.addf (FloatOps.addf (FloatOps.mulf x x) (FloatOps.mulf y y)) (FloatOps.mulf z z)
  let th := FloatOps.sqrt s
  let r := FloatOps.divf one s
  let B := FloatOps.mulf (FloatOps.subf one (FloatOps.cos th)) r
  let A := FloatOps.mulf (FloatOps.sin th) (FloatOps.mulf th r)
  let C := FloatOps.mulf (FloatOps.subf one A) r
  let xy := FloatOps.mulf x y
  let xz := FloatOps.mulf x z
  let yz := FloatOps.mulf y z
  ![FloatOps.addf one (FloatOps.mulf C (FloatOps.subf zero (FloatOps.addf (FloatOps.mulf y y) (FloatOps.mulf z z)))),
    FloatOps.addf (FloatOps.mulf (FloatOps.subf zero B) z) (FloatOps.mulf C xy),
    FloatOps.addf (FloatOps.mulf B y) (FloatOps.mulf C xz),
    FloatOps.addf (FloatOps.mulf B z) (FloatOps.mulf C xy),
    FloatOps.addf one (FloatOps.mulf C (FloatOps.subf zero (FloatOps.addf (FloatOps.mulf x x) (FloatOps.mulf z z)))),
    FloatOps.addf (FloatOps.mulf (FloatOps.subf zero B) x) (FloatOps.mulf C yz),
    FloatOps.addf (FloatOps.mulf (FloatOps.subf zero B) y) (FloatOps.mulf C xz),
    FloatOps.addf (FloatOps.mulf B x) (FloatOps.mulf C yz),
    FloatOps.addf one (FloatOps.mulf C (FloatOps.subf zero (FloatOps.addf (FloatOps.mulf x x) (FloatOps.mulf y y))))]

end AnyInstance

/-- Entry (i, j) of a 3×3 matrix sits at place 3·i + j of its row-major row of nine. -/
def flat (i j : Fin 3) : Fin 9 := ⟨3 * i.val + j.val, by have := i.isLt; have := j.isLt; omega⟩

/-- The three constants, as the extended reals their words denote. -/
def epsW : EReal := Ideal.ofBits .f32 0x2EDBE6FF#32
def oneW : EReal := Ideal.ofBits .f32 0x3F800000#32
def zeroW : EReal := Ideal.ofBits .f32 0x00000000#32

/-- The shifted row (x, y, z). -/
def shifted (a b c : EReal) : Fin 3 → EReal := fun k => ![a, b, c] k + epsW

/-- The skew-symmetric matrix of a vector v, the zeros being the zero word: rows (0, -v₂, v₁), (v₂, 0, -v₀),
    (-v₁, v₀, 0). -/
def skew (v : Fin 3 → EReal) (i j : Fin 3) : EReal :=
  ![![zeroW, -(v 2), v 1], ![v 2, zeroW, -(v 0)], ![-(v 1), v 0, zeroW]] i j

/-- The identity matrix's entries. -/
def eye (i j : Fin 3) : EReal := if i = j then 1 else 0

/-- The reference's entry (i, j) of one row's matrix: (I + B·K) + C·K², the sum of squares onto the zero word,
    K² a sum over the middle index. -/
def refEntry (a b c : EReal) (i j : Fin 3) : EReal :=
  let v := shifted a b c
  let s := zeroW + ∑ k : Fin 3, v k * v k
  let th := Ideal.sqrt s
  let A := Ideal.div (Ideal.sin th) th
  let B := Ideal.div (oneW - Ideal.cos th) s
  let C := Ideal.div (oneW - A) s
  (eye i j + B * skew v i j) + C * ∑ k : Fin 3, skew v i k * skew v k j

end Cert.Spec

end
-- ==== Proof.PayRowKI.lean ====
/-
  The kernel body's one store, read at an entry: row r, place k of the [12288, 9] block the body writes is the k-th
  of the nine row entries (`Spec.kerRow`) of row r of the [12288, 3] block it loaded — the body works row by row:
  it shifts the block, takes its three columns as vectors, does pointwise arithmetic on them, turns the nine
  resulting vectors back into columns and lays them side by side. For every float instance.
-/
import proofs.«148425_j18983755448816_2_alg».proof.Proof.Gen.KernelIdeal.Skeleton
import proofs.«148425_j18983755448816_2_alg».proof.Proof.Spec
import Idealize.ShloMosaic.Lib.Pipeline.Value
import Idealize.ShloMosaic.Lib.ValueIdx
import Idealize.ShloMosaic.Lib.ValueLayout

noncomputable section

namespace Cert.KernelIdeal.PayRow

open Cert.KernelIdeal Cert.KernelIdeal.Gen Idealize.ShloMosaic Idealize.ShloMosaic.ValueIdx

/-! ## Columns and vectors -/

section Layout
variable {α : Type}

/-- An [n, 1] column cast to a length-n vector, read at r, is the column at (r, 0): the two row-major positions are r. -/
theorem col_to_vec {n : Nat} (x : (⟨2, ![n, 1]⟩ : Shape).Idx → α) (h : (⟨2, ![n, 1]⟩ : Shape).ShapeCasts ⟨1, ![n]⟩) (r : Fin n) :
    shapeCast ⟨1, ![n]⟩ x h (ix1 r) = x (ix2 r (0 : Fin 1)) :=
  shapeCast_apply x h (ix1 r) (ix2 r (0 : Fin 1)) (by
    rw [Shape.rowMajor_val_two, Shape.rowMajor_val_one]
    show r.val * 1 + 0 = r.val
    omega)

/-- A length-n vector cast to an [n, 1] column, read at (r, 0), is the vector at r. -/
theorem vec_to_col {n : Nat} (x : (⟨1, ![n]⟩ : Shape).Idx → α) (h : (⟨1, ![n]⟩ : Shape).ShapeCasts ⟨2, ![n, 1]⟩) (r : Fin n) (z : Fin 1) :
    shapeCast ⟨2, ![n, 1]⟩ x h (ix2 r z) = x (ix1 r) :=
  shapeCast_apply x h (ix2 r z) (ix1 r) (by
    rw [Shape.rowMajor_val_two, Shape.rowMajor_val_one]
    show r.val = r.val * 1 + z.val
    have := z.isLt
    omega)

/-- Column k of an [n, m] matrix, read at (r, 0), is the matrix at (r, k). -/
theorem col_of {n m : Nat} (k : Fin m) (x : (⟨2, ![n, m]⟩ : Shape).Idx → α) (h : (⟨2, ![n, m]⟩ : Shape).Slices ![0, k.val] ⟨2, ![n, 1]⟩)
    (r : Fin n) (z : Fin 1) : extractStridedSlice ⟨2, ![n, 1]⟩ ![0, k.val] x h (ix2 r z) = x (ix2 r k) :=
  slice2_axis1_apply k.val x h r z k (by have := z.isLt; omega)

/-- The k-th of nine things. -/
def pick9 {β : Type} (c0 c1 c2 c3 c4 c5 c6 c7 c8 : β) : Fin 9 → β
  | ⟨0, _⟩ => c0 | ⟨1, _⟩ => c1 | ⟨2, _⟩ => c2 | ⟨3, _⟩ => c3 | ⟨4, _⟩ => c4 | ⟨5, _⟩ => c5 | ⟨6, _⟩ => c6 | ⟨7, _⟩ => c7 | ⟨8, _⟩ => c8

/-- Nine [n, 1] columns laid side by side, read at (r, k), is the k-th column at (r, 0). -/
theorem nine_cols {n : Nat} (c0 c1 c2 c3 c4 c5 c6 c7 c8 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩,
      ⟨⟨2, ![n, 1]⟩, c5⟩, ⟨⟨2, ![n, 1]⟩, c6⟩, ⟨⟨2, ![n, 1]⟩, c7⟩, ⟨⟨2, ![n, 1]⟩, c8⟩] : List ((s : Shape) × (s.Idx → α))).map (·.1)) ⟨2, ![n, 9]⟩ 1)
    (r : Fin n) (k : Fin 9) :
    concatenate ⟨2, ![n, 9]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩,
      ⟨⟨2, ![n, 1]⟩, c5⟩, ⟨⟨2, ![n, 1]⟩, c6⟩, ⟨⟨2, ![n, 1]⟩, c7⟩, ⟨⟨2, ![n, 1]⟩, c8⟩] h (ix2 r k)
      = (pick9 c0 c1 c2 c3 c4 c5 c6 c7 c8 k) (ix2 r (0 : Fin 1)) := by
  have hi : ∀ b : Fin 2, b.cast rfl ≠ (1 : Fin 2) → ((ix2 r (0 : Fin 1) : (⟨2, ![n, 1]⟩ : Shape).Idx) b).val = ((ix2 r k : (⟨2, ![n, 9]⟩ : Shape).Idx) (b.cast rfl)).val := by
    intro b hb
    match b, hb with
    | ⟨0, _⟩, _ => rfl
    | ⟨1, _⟩, hb => exact absurd rfl hb
  match k with
  | ⟨0, _⟩ => exact concatenate_apply_piece 1 _ h _ 0 (by simp) _ c0 rfl rfl 0 rfl (ix2 r 0) hi rfl
  | ⟨1, _⟩ => exact concatenate_apply_piece 1 _ h _ 1 (by simp) _ c1 rfl rfl 1 rfl (ix2 r 0) hi rfl
  | ⟨2, _⟩ => exact concatenate_apply_piece 1 _ h _ 2 (by simp) _ c2 rfl rfl 2 rfl (ix2 r 0) hi rfl
  | ⟨3, _⟩ => exact concatenate_apply_piece 1 _ h _ 3 (by simp) _ c3 rfl rfl 3 rfl (ix2 r 0) hi rfl
  | ⟨4, _⟩ => exact concatenate_apply_piece 1 _ h _ 4 (by simp) _ c4 rfl rfl 4 rfl (ix2 r 0) hi rfl
  | ⟨5, _⟩ => exact concatenate_apply_piece 1 _ h _ 5 (by simp) _ c5 rfl rfl 5 rfl (ix2 r 0) hi rfl
  | ⟨6, _⟩ => exact concatenate_apply_piece 1 _ h _ 6 (by simp) _ c6 rfl rfl 6 rfl (ix2 r 0) hi rfl
  | ⟨7, _⟩ => exact concatenate_apply_piece 1 _ h _ 7 (by simp) _ c7 rfl rfl 7 rfl (ix2 r 0) hi rfl
  | ⟨8, _⟩ => exact concatenate_apply_piece 1 _ h _ 8 (by simp) _ c8 rfl rfl 8 rfl (ix2 r 0) hi rfl

end Layout

/-! ## The body's payloads at a row -/

variable {F : FTy → Type} [FloatOps F]

/-- What the body stores, as one function of the block it loaded. -/
def Pay (X : Vec F S12288x3 .f32) : FVec F S12288x9 .f32 :=
  k0_pay1 (k0_pay3 X) (k0_pay4 X) (k0_pay5 X) (k0_pay9 X) (k0_pay10 X) (k0_pay12 X) (k0_pay13 X) (k0_pay14 X) (k0_pay15 X)
    (k0_pay16 X) (k0_pay17 X) (k0_pay18 X)

/-- The shifted block's column k as a vector, at r: the block at (r, k) plus ε. -/
theorem x_at (X : Vec F S12288x3 .f32) (r : Fin 12288) :
    k0_pay3 X (ix1 r) = FloatOps.addf (X (ix2 r (0 : Fin 3))) (FloatOps.ofBits .f32 0x2EDBE6FF#32) := by
  unfold k0_pay3
  refine (col_to_vec _ _ r).trans ?_
  exact col_of (0 : Fin 3) (k0_pay2 X) slices_S12288x3_o0_0_S12288x1 r 0
theorem y_at (X : Vec F S12288x3 .f32) (r : Fin 12288) :
    k0_pay4 X (ix1 r) = FloatOps.addf (X (ix2 r (1 : Fin 3))) (FloatOps.ofBits .f32 0x2EDBE6FF#32) := by
  unfold k0_pay4
  refine (col_to_vec _ _ r).trans ?_
  exact col_of (1 : Fin 3) (k0_pay2 X) slices_S12288x3_o0_1_S12288x1 r 0
theorem z_at (X : Vec F S12288x3 .f32) (r : Fin 12288) :
    k0_pay5 X (ix1 r) = FloatOps.addf (X (ix2 r (2 : Fin 3))) (FloatOps.ofBits .f32 0x2EDBE6FF#32) := by
  unfold k0_pay5
  refine (col_to_vec _ _ r).trans ?_
  exact col_of (2 : Fin 3) (k0_pay2 X) slices_S12288x3_o0_2_S12288x1 r 0

/-- THE STORE AT AN ENTRY: row r, place k of what the body stores is the k-th row entry of row r of what it loaded.
    Place k of the nine columns laid side by side is column k, which is the k-th result vector at r; that vector is
    pointwise arithmetic on the three coordinate vectors, which at r are the shifted inputs of row r. -/
theorem pay_apply (X : Vec F S12288x3 .f32) (r : Fin 12288) (k : Fin 9) :
    Pay X (ix2 r k) = Cert.Spec.kerRow (X (ix2 r (0 : Fin 3))) (X (ix2 r (1 : Fin 3))) (X (ix2 r (2 : Fin 3))) k := by
  unfold Pay k0_pay1
  obtain ⟨k, hk⟩ := k
  interval_cases k <;>
  · refine (nine_cols _ _ _ _ _ _ _ _ _ _ r _).trans ?_
    simp only [pick9]
    refine (vec_to_col _ _ r 0).trans ?_
    simp only [k0_pay6, k0_pay7, k0_pay8, k0_pay9, k0_pay10, k0_pay11, k0_pay12, k0_pay13, k0_pay14, k0_pay15, k0_pay16, k0_pay17,
      k0_pay18, addf, subf, mulf, divf, sqrt, sin, cos, broadcast, x_at, y_at, z_at]
    rfl

end Cert.KernelIdeal.PayRow

end
-- ==== Proof.BodyKI.lean ====
/-
  The frame of the program: it runs to the end, faults nowhere and leaves its argument as it was — and, for the
  value claim, what its result array holds afterwards.

  The program is one pipelined region over 326 grid points followed by one host reshape. At point t the pipeline
  fetches rows 12288·t … of the [4000000, 3] argument into a [12288, 3] staging buffer, the body loads the whole
  buffer, computes the nine row entries of every row (PayRow: `Pay`) and stores the whole [12288, 9] result buffer,
  which the pipeline writes back onto rows 12288·t … of the [4000000, 9] result. 4000000 is not a multiple of 12288:
  the last block overhangs both arrays by 5888 rows. There the fetch fills only the buffer's first 6400 rows with
  the array's rows and leaves words nothing names in the rest; the body computes on all 12288 rows; the write-back
  moves only the first 6400 rows of the result buffer. Since the body works row by row (`pay_apply`), the rows that
  are written back do not depend on the unnamed rows of the input buffer (`cut_pay_congr`): that is the whole
  content of the body obligation beyond running the body.
-/
import proofs.«148425_j18983755448816_2_alg».proof.Proof.Gen.KernelIdeal.Frame
import proofs.«148425_j18983755448816_2_alg».proof.Proof.Gen.KernelIdeal.Skeleton
import proofs.«148425_j18983755448816_2_alg».proof.Proof.PayRowKI
import Idealize.ShloMosaic.Lib.Pipeline.Frame
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.PayRow
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two accesses: each the whole buffer -/

abbrev rIn : Rect S12288x3 := Rect.unit (s := S12288x3) ![0, 0] S12288x3.size inb_S12288x3_S12288x3_0_0
abbrev rOut : Rect S12288x9 := Rect.unit (s := S12288x9) ![0, 0] S12288x9.size inb_S12288x9_S12288x9_0_0

theorem off_zero : (![0, 0] : Fin 2 → Nat) = fun _ => 0 := funext fun a => by fin_cases a <;> rfl

/-- The one store covers the result buffer. -/
theorem cover_out (p0 : Vec F S12288x9 .f32) (y : S12288x9.Idx) :
    ∃ pc ∈ ([⟨rOut, p0⟩] : List (View.Piece (Elt F) S12288x9 .f32)), y ∈ pc.1.set :=
  View.cover_of_tiled [⟨rOut, p0⟩] S12288x9.size (by rfl) y

/-! ## The body's triple -/

set_option maxHeartbeats 1000000 in
/-- The body on whole staging buffers, the input's holding `x0` and the result's anything, runs to the continuation
    with the input's as it was and the result's holding `Pay x0`: one whole load, arithmetic, one whole store. -/
theorem sound_kernel (c : Dev nD) (E : Set ℕ) (i : grid0.Coords) (arg1 : Memref sig .tc .vmem S12288x3 .f32) (harg1 : arg1.IsWhole)
    (arg2 : Memref sig .tc .vmem S12288x9 .f32) (harg2 : arg2.IsWhole) (x0 : Vec F S12288x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (Pay x0)) -∗ K ⟨⟩))
      ⊢ wp frame (wpE (defs₀ (F := F)) Variants.none c none) E (cc0__getv_kernel i arg1 harg1 arg2 harg2) K := by
  simp only [cc0__getv_kernel_eq_skeleton]; unfold cc0__getv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover_out _), View.canon_unit_zero off_zero]
  sl_unfold_words
  simp only [View.readAt_eq_ld, View.ld_unit_zero (S := S12288x3) off_zero]
  rfl

/-! ## The cuts of the two windows agree

At every grid point both windows move the same rows (the two arrays have 4000000 rows, the two blocks 12288) and
all the columns of their blocks. -/

/-- Along the rows the two windows are cut alike, and the input's three columns are never cut. -/
theorem xsize_facts : ∀ t : Fin cfg0.N, win0_0.xsize (grid0.coords t) 0 = win0_1.xsize (grid0.coords t) 0
    ∧ win0_0.xsize (grid0.coords t) 1 = 3 :=
  (by decide +kernel : ∀ t : Fin grid0.N, win0_0.xsize (grid0.coords t) 0 = win0_1.xsize (grid0.coords t) 0
    ∧ win0_0.xsize (grid0.coords t) 1 = 3)

/-- THE ROWS WRITTEN BACK DO NOT SEE THE UNNAMED ROWS: the part of the stored block that the write-back at point t
    moves is the same whatever fills the input buffer past the rows the fetch filled — entry (r, k) of the store
    depends on row r of the input buffer only, and a moved row of the result is a filled row of the input. -/
theorem cut_pay_congr (t : Fin cfg0.N) (d d' : S12288x3.Idx → Elt F .f32)
    (g : (win0_0.xblock (grid0.coords t)).Idx → Elt F .f32) :
    win0_1.cut (grid0.coords t) (Pay (win0_0.fill (grid0.coords t) d g))
      = win0_1.cut (grid0.coords t) (Pay (win0_0.fill (grid0.coords t) d' g)) := by
  funext j
  obtain ⟨r, k, hrk⟩ : ∃ (r : Fin 12288) (k : Fin 9), win0_1.xinj (grid0.coords t) j = ix2 r k := ⟨_, _, eq_ix2 _⟩
  have hr : r.val < win0_0.xsize (grid0.coords t) 0 := by
    rw [(xsize_facts t).1]
    have h0 : r = (win0_1.xinj (grid0.coords t) j) 0 := by rw [hrk]; rfl
    rw [h0]; exact (j 0).isLt
  have hmv : ∀ q : Fin 3, win0_0.moved (grid0.coords t) (ix2 r q) = true := fun q =>
    (win0_0.moved_iff (grid0.coords t) _).mpr fun a => by
      match a with
      | ⟨0, _⟩ => exact hr
      | ⟨1, _⟩ => show q.val < win0_0.xsize (grid0.coords t) 1; rw [(xsize_facts t).2]; exact q.isLt
  have e : ∀ q : Fin 3, win0_0.fill (grid0.coords t) d g (ix2 r q) = win0_0.fill (grid0.coords t) d' g (ix2 r q) := fun q => by
    unfold Window.fill; rw [dif_pos (hmv q), dif_pos (hmv q)]
  show Pay (win0_0.fill (grid0.coords t) d g) (win0_1.xinj (grid0.coords t) j)
    = Pay (win0_0.fill (grid0.coords t) d' g) (win0_1.xinj (grid0.coords t) j)
  rw [hrk, pay_apply, pay_apply, e 0, e 1, e 2]

/-! ## The pipeline's proof data -/

/-- The input's block at point t as a whole staging buffer: the array's rows where the fetch lands them, the zero
    word on the rows past the array's end (a filler nothing reads). -/
def inFull (c : Dev nD) (t : Fin cfg0.N) : S12288x3.Idx → Elt F .f32 :=
  win0_0.fill (grid0.coords t) (fun _ => FloatOps.ofBits .f32 0x00000000#32) (iblk m c 0 t)

/-- The proof data of the one pipeline on core c: the arrays as the region finds them; after the body at point t the
    input's buffer at its block filled out, the result's at the body's store of that; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => Pay (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inFull m c t := by dsimp only [dats]
theorem after0_1 (c : Dev nD) (t : Fin cfg0.N) : (dats m 0 c).after 1 t = Pay (inFull m c t) := by dsimp only [dats]

/-- The input's buffer when the body runs: fetched at every point, so the array's block on the rows the fetch
    fills and whatever the buffer held (`d`) on the others. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-! ## The body obligation -/

/-- At every point: the input's buffer arrives holding its block filled out with some `d`, the result's anything;
    the body leaves the first as it was and the second at its store of it; on the rows the transfers move that is
    the proof data's `after` (`Window.cut_fill`, `cut_pay_congr`), which is all the two clipped windows' obligations
    state. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  iapply (sound_kernel (F := F) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have h0 : win0_0.cut (grid0.coords t) ((dats m 0 c).after 0 t) = iblk m c 0 t := by
    rw [after0_0]; exact win0_0.cut_fill _ _ _
  have h1 : win0_1.fill (grid0.coords t) (Pay (win0_0.fill (grid0.coords t) d0 (iblk m c 0 t)))
      (win0_1.cut (grid0.coords t) ((dats m 0 c).after 1 t)) = Pay (win0_0.fill (grid0.coords t) d0 (iblk m c 0 t)) := by
    rw [after0_1]
    exact win0_1.fill_congr_cut _ (cut_pay_congr t _ _ _)
  isplitl [H0]
  · iexists d0
    change _ ⊢ owns (c : Thread nD τ) (st0_0 t) fullShare (win0_0.fill (grid0.coords t) d0 (win0_0.cut (grid0.coords t) ((dats m 0 c).after 0 t)))
    rw [h0]; try iexact H0
  · iexists Pay (win0_0.fill (grid0.coords t) d0 (iblk m c 0 t))
    change _ ⊢ owns (c : Thread nD τ) (st0_1 t) fullShare (win0_1.fill (grid0.coords t) (Pay (win0_0.fill (grid0.coords t) d0 (iblk m c 0 t)))
      (win0_1.cut (grid0.coords t) ((dats m 0 c).after 1 t)))
    rw [h1]; try iexact H1

/-! ## The run and the frame -/

set_option backward.isDefEq.respectTransparency.types false in
/-- For any values, from any memory with zero counters: every weakly fair execution of @main terminates, and every
    final state has each array of the pipeline at what the proof data compute and every other unscoped buffer as
    the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs, faults nowhere, and its argument ends as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Cast933.lean ====
/-
  A table of n rows of nine numbers regrouped as n matrices of three rows of three: entry (i, j) of matrix r is the
  number at place 3·i + j of row r. Both sit at the same place when the tables are laid out row after row:
  (r·3 + i)·3 + j = r·9 + (3·i + j).
-/
import proofs.«148425_j18983755448816_2_alg».proof.Proof.Spec
import Idealize.ShloMosaic.Lib.Pipeline.Value
import Idealize.ShloMosaic.Lib.ValueIdx

namespace Cert.Cast933

open Idealize.ShloMosaic Idealize.ShloMosaic.ValueIdx

/-- The regrouped table at (r, i, j) is the flat table at (r, 3·i + j). -/
theorem cast_apply {α : Type} {n : Nat} (Y : (⟨2, ![n, 9]⟩ : Shape).Idx → α)
    (h : (⟨2, ![n, 9]⟩ : Shape).ShapeCasts ⟨3, ![n, 3, 3]⟩) (r : Fin n) (i j : Fin 3) :
    shapeCast ⟨3, ![n, 3, 3]⟩ Y h (ValueIdx.ix3 r i j) = Y (ValueIdx.ix2 r (Cert.Spec.flat i j)) := by
  refine shapeCast_apply Y h (ix3 r i j) (ix2 r (Cert.Spec.flat i j)) ?_
  rw [Shape.rowMajor_val_two, Shape.rowMajor_val_three]
  show r.val * 9 + (3 * i.val + j.val) = (r.val * 3 + i.val) * 3 + j.val
  omega

end Cert.Cast933
-- ==== Proof.ValueKI.lean ====
/-
  What the idealized kernel's result array holds after the run, as ONE function of the argument array.

  Point t of the grid writes back rows 12288·t … of the [4000000, 9] array: the first rows of the stored block, as
  many as lie inside the array. Row r of that block is the nine row entries of row r of the input block, which is
  row 12288·t + r of the argument: so the write-back at t is block t of `G`, the array whose row n is the nine
  entries of the argument's row n. The 326 blocks cover the array (row n lies in block n / 12288), so the array ends
  at `G`; the host reshape after the region lays each row of nine out as a 3×3 matrix.
-/
import proofs.«148425_j18983755448816_2_alg».proof.Proof.BodyKI
import proofs.«148425_j18983755448816_2_alg».proof.Proof.Cast933
import Idealize.ShloMosaic.Lib.StableHlo.Run

set_option maxRecDepth 16384

noncomputable section

namespace Cert.KernelIdeal.Whole

open Cert.KernelIdeal Cert.KernelIdeal.Gen Cert.KernelIdeal.PayRow Cert.KernelIdeal.Body
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The [4000000, 9] array whose row n is the nine row entries of the argument's row n. -/
def G (X : S4000000x3.Idx → Elt F .f32) : S4000000x9.Idx → Elt F .f32 :=
  fun i => Cert.Spec.kerRow (X (ix2 (i 0) (0 : Fin 3))) (X (ix2 (i 0) (1 : Fin 3))) (X (ix2 (i 0) (2 : Fin 3))) (i 1)

/-- The printed index maps and cuts, decided over the grid: at point t both windows' block index is (t, 0); the
    result's nine columns are never cut; its rows are cut only where the block reaches the array's end. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_1.xsize (grid0.coords t) 1 = 9
    ∧ (win0_1.xsize (grid0.coords t) 0 = 12288 ∨ 4000000 ≤ t.val * 12288 + win0_1.xsize (grid0.coords t) 0) :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_1.xsize (grid0.coords t) 1 = 9
    ∧ (win0_1.xsize (grid0.coords t) 0 = 12288 ∨ 4000000 ≤ t.val * 12288 + win0_1.xsize (grid0.coords t) 0))

/-- A filled row r of the input buffer at point t is row 12288·t + r of the argument. -/
theorem inFull_apply (c : Dev nD) (t : Fin cfg0.N) (r : Fin 12288) (q : Fin 3)
    (hr : r.val < win0_0.xsize (grid0.coords t) 0) (n : Fin 4000000) (hn : n.val = t.val * 12288 + r.val) :
    inFull m c t (ix2 r q) = V m c main_arg0 (ix2 n q) := by
  have hmv : win0_0.moved (grid0.coords t) (ix2 r q) = true :=
    (win0_0.moved_iff (grid0.coords t) _).mpr fun a => by
      match a with
      | ⟨0, _⟩ => exact hr
      | ⟨1, _⟩ => show q.val < win0_0.xsize (grid0.coords t) 1; rw [(xsize_facts t).2]; exact q.isLt
  obtain ⟨e0, e1, -⟩ := idx_facts t
  unfold inFull Window.fill
  rw [dif_pos hmv]
  unfold iblk
  rw [View.read_apply]
  show V m c main_arg0 _ = V m c main_arg0 _
  refine congrArg (V m c main_arg0) (funext fun a => Fin.ext ?_)
  match a with
  | ⟨0, _⟩ => show win0_0.index t (0 : Fin 2) * 12288 + 1 * r.val = n.val; omega
  | ⟨1, _⟩ => show win0_0.index t (1 : Fin 2) * 3 + 1 * q.val = q.val; omega

/-- WHAT POINT t WRITES BACK is block t of `G` of the argument. -/
theorem flushed_eq (c : Dev nD) (t : Fin cfg0.N) :
    (dats m 0 c).flushed 1 t = ((cfg0.win 1).blk t).view.read (Elt F) (G (V m c main_arg0)) := by
  show (cfg0.win 1).cut (grid0.coords t) ((dats m 0 c).after 1 t) = _
  rw [after0_1]
  obtain ⟨e0, e1, e2, e3, e4, e5⟩ := idx_facts t
  funext j
  obtain ⟨r, k, hrk⟩ : ∃ (r : Fin 12288) (k : Fin 9), win0_1.xinj (grid0.coords t) j = ix2 r k := ⟨_, _, eq_ix2 _⟩
  have hr0 : r = (win0_1.xinj (grid0.coords t) j) 0 := by rw [hrk]; rfl
  have hk0 : k = (win0_1.xinj (grid0.coords t) j) 1 := by rw [hrk]; rfl
  have hrv : r.val = (j 0).val := by rw [hr0]
  have hkv : k.val = (j 1).val := by rw [hk0]
  have hr : r.val < win0_0.xsize (grid0.coords t) 0 := by
    rw [(xsize_facts t).1, hrv]; exact (j 0).isLt
  show Pay (inFull m c t) (win0_1.xinj (grid0.coords t) j) = G (V m c main_arg0) (((cfg0.win 1).blk t).view.emb j)
  rw [hrk, pay_apply]
  unfold G
  have hk : ((cfg0.win 1).blk t).view.emb j 1 = k :=
    Fin.ext (by show win0_1.index t (1 : Fin 2) * 9 + 1 * (j 1).val = k.val; omega)
  have hn : ∀ q : Fin 3, inFull m c t (ix2 r q) = V m c main_arg0 (ix2 (((cfg0.win 1).blk t).view.emb j 0) q) := fun q =>
    inFull_apply m c t r q hr _ (by show win0_1.index t (0 : Fin 2) * 12288 + 1 * (j 0).val = t.val * 12288 + r.val; omega)
  rw [hn 0, hn 1, hn 2, hk]

/-- An index of the result array is in point t's block iff each coordinate is in the block's range inside the array. -/
theorem mem_blk (t : Fin cfg0.N) (i : S4000000x9.Idx) :
    i ∈ ((cfg0.win 1).blk t).view.set ↔ ∀ a : Fin 2, win0_1.index t a * S12288x9.size a ≤ (i a).val
      ∧ (i a).val < win0_1.index t a * S12288x9.size a + win0_1.xsize (grid0.coords t) a := by
  show i ∈ ((View.whole main_v0).slice (win0_1.rect t)).set ↔ _
  rw [View.set_slice_whole, Rect.mem_set_unit]
  exact Iff.rfl

/-- THE BLOCKS COVER THE ARRAY: row n lies in the block of point n / 12288. -/
theorem cover (i : S4000000x9.Idx) :
    ∃ t : Fin cfg0.N, (cfg0.win 1).flush t = true ∧ i ∈ ((cfg0.win 1).blk t).view.set := by
  have hi0 : (i 0).val < 4000000 := (i 0).isLt
  have hi1 : (i 1).val < 9 := (i 1).isLt
  have ht : (i 0).val / 12288 < grid0.N := by rw [N_0]; omega
  refine ⟨⟨(i 0).val / 12288, ht⟩, flush0_1 _, ?_⟩
  obtain ⟨e0, e1, e2, e3, e4, e5⟩ := idx_facts ⟨(i 0).val / 12288, ht⟩
  rw [mem_blk]
  intro a
  match a with
  | ⟨0, _⟩ =>
    show win0_1.index ⟨(i 0).val / 12288, ht⟩ (0 : Fin 2) * 12288 ≤ (i 0).val
      ∧ (i 0).val < win0_1.index ⟨(i 0).val / 12288, ht⟩ (0 : Fin 2) * 12288 + win0_1.xsize (grid0.coords ⟨(i 0).val / 12288, ht⟩) 0
    rw [e2]
    show (i 0).val / 12288 * 12288 ≤ (i 0).val ∧ (i 0).val < (i 0).val / 12288 * 12288 + win0_1.xsize (grid0.coords ⟨(i 0).val / 12288, ht⟩) 0
    have e5' : win0_1.xsize (grid0.coords ⟨(i 0).val / 12288, ht⟩) 0 = 12288
        ∨ 4000000 ≤ (i 0).val / 12288 * 12288 + win0_1.xsize (grid0.coords ⟨(i 0).val / 12288, ht⟩) 0 := e5
    omega
  | ⟨1, _⟩ =>
    show win0_1.index ⟨(i 0).val / 12288, ht⟩ (1 : Fin 2) * 9 ≤ (i 1).val
      ∧ (i 1).val < win0_1.index ⟨(i 0).val / 12288, ht⟩ (1 : Fin 2) * 9 + win0_1.xsize (grid0.coords ⟨(i 0).val / 12288, ht⟩) 1
    rw [e3, e4]; omega

/-- THE RESULT ARRAY OF THE REGION after the run is `G` of the argument. -/
theorem final (c : Dev nD) : (dats m 0 c).arrAt 1 cfg0.N = G (V m c main_arg0) :=
  (dats m 0 c).arrAt_eq_of_cover 1 (G (V m c main_arg0)) (fun t _ => flushed_eq m c t) cover

/-- The program's result: each row of nine laid out as a 3×3 matrix. -/
def Res (X : S4000000x3.Idx → Elt F .f32) : S4000000x3x3.Idx → Elt F .f32 :=
  shapeCast S4000000x3x3 (G X) shapeCasts_S4000000x9_S4000000x3x3

/-- Entry (n, i, j) of the result is the kernel's row entry 3·i + j of the argument's row n: the two row-major
    positions are 9·n + 3·i + j. -/
theorem Res_apply (X : S4000000x3.Idx → Elt F .f32) (n : Fin 4000000) (i j : Fin 3) :
    Res X (ix3 n i j)
      = Cert.Spec.kerRow (X (ix2 n (0 : Fin 3))) (X (ix2 n (1 : Fin 3))) (X (ix2 n (2 : Fin 3))) (Cert.Spec.flat i j) := by
  unfold Res
  exact Cert.Cast933.cast_apply (G X) shapeCasts_S4000000x9_S4000000x3x3 n i j

/-- What the reshape after the region leaves in the program's result buffer. -/
theorem tail_eq (c : Dev nD) :
    Pipeline.afterTail₀ cfgs (dats m) 0 (V0 m) [hostOps1] c main_v1 = Res (V m c main_arg0) := by
  unfold Pipeline.afterTail₀
  show StableHlo.after hostOps1 _ (Proc.devRef .tc main_v1) = _
  after_results
  unfold Res
  refine congrArg (fun Y => shapeCast S4000000x3x3 Y shapeCasts_S4000000x9_S4000000x3x3) ?_
  exact (Pipeline.withArrays_arr spec0 launch0.win.arr_inj c _ _ 1).trans (final m c)

/-- THE RUN, READ: every weakly fair execution terminates with the result buffer at `Res` of the argument and the
    argument as it was. -/
theorem run : θ_run defs (onTc (τ := τ) (main (F := F))) ⟨m, fun _ => 0, ρ⟩ fun r => ∀ c : Dev nD,
      r.2.mem ((c.tc : Thread nD τ).loc main_v1) = Res (m ((c.tc : Thread nD τ).loc main_arg0))
      ∧ r.2.mem ((c.tc : Thread nD τ).loc main_arg0) = m ((c.tc : Thread nD τ).loc main_arg0) :=
  (θ_run defs _ _).mono (fun r h c =>
      ⟨(((h c).2 main_v1 (Pipeline.mem_restRefs_of main_v1 (by decide) (by decide))).trans (tail_eq m c)).trans
          (congrArg Res (V_main_arg0 m c)),
        ((h c).1 0).trans (((dats m 0 c).arrAt_in 0 rfl _).trans ((A_eq m c 0).trans (V_main_arg0 m c)))⟩)
    (run_main m ρ)

end Cert.KernelIdeal.Whole

end
-- ==== Proof.PayRowK.lean ====
/-
  The kernel body's one store, read at an entry: row r, place k of the [12288, 9] block the body writes is the k-th
  of the nine row entries (`Spec.kerRow`) of row r of the [12288, 3] block it loaded — the body works row by row:
  it shifts the block, takes its three columns as vectors, does pointwise arithmetic on them, turns the nine
  resulting vectors back into columns and lays them side by side. For every float instance.
-/
import proofs.«148425_j18983755448816_2_alg».proof.Proof.Gen.Kernel.Skeleton
import proofs.«148425_j18983755448816_2_alg».proof.Proof.Spec
import Idealize.ShloMosaic.Lib.Pipeline.Value
import Idealize.ShloMosaic.Lib.ValueIdx
import Idealize.ShloMosaic.Lib.ValueLayout

noncomputable section

namespace Cert.Kernel.PayRow

open Cert.Kernel Cert.Kernel.Gen Idealize.ShloMosaic Idealize.ShloMosaic.ValueIdx

/-! ## Columns and vectors -/

section Layout
variable {α : Type}

/-- An [n, 1] column cast to a length-n vector, read at r, is the column at (r, 0): the two row-major positions are r. -/
theorem col_to_vec {n : Nat} (x : (⟨2, ![n, 1]⟩ : Shape).Idx → α) (h : (⟨2, ![n, 1]⟩ : Shape).ShapeCasts ⟨1, ![n]⟩) (r : Fin n) :
    shapeCast ⟨1, ![n]⟩ x h (ix1 r) = x (ix2 r (0 : Fin 1)) :=
  shapeCast_apply x h (ix1 r) (ix2 r (0 : Fin 1)) (by
    rw [Shape.rowMajor_val_two, Shape.rowMajor_val_one]
    show r.val * 1 + 0 = r.val
    omega)

/-- A length-n vector cast to an [n, 1] column, read at (r, 0), is the vector at r. -/
theorem vec_to_col {n : Nat} (x : (⟨1, ![n]⟩ : Shape).Idx → α) (h : (⟨1, ![n]⟩ : Shape).ShapeCasts ⟨2, ![n, 1]⟩) (r : Fin n) (z : Fin 1) :
    shapeCast ⟨2, ![n, 1]⟩ x h (ix2 r z) = x (ix1 r) :=
  shapeCast_apply x h (ix2 r z) (ix1 r) (by
    rw [Shape.rowMajor_val_two, Shape.rowMajor_val_one]
    show r.val = r.val * 1 + z.val
    have := z.isLt
    omega)

/-- Column k of an [n, m] matrix, read at (r, 0), is the matrix at (r, k). -/
theorem col_of {n m : Nat} (k : Fin m) (x : (⟨2, ![n, m]⟩ : Shape).Idx → α) (h : (⟨2, ![n, m]⟩ : Shape).Slices ![0, k.val] ⟨2, ![n, 1]⟩)
    (r : Fin n) (z : Fin 1) : extractStridedSlice ⟨2, ![n, 1]⟩ ![0, k.val] x h (ix2 r z) = x (ix2 r k) :=
  slice2_axis1_apply k.val x h r z k (by have := z.isLt; omega)

/-- The k-th of nine things. -/
def pick9 {β : Type} (c0 c1 c2 c3 c4 c5 c6 c7 c8 : β) : Fin 9 → β
  | ⟨0, _⟩ => c0 | ⟨1, _⟩ => c1 | ⟨2, _⟩ => c2 | ⟨3, _⟩ => c3 | ⟨4, _⟩ => c4 | ⟨5, _⟩ => c5 | ⟨6, _⟩ => c6 | ⟨7, _⟩ => c7 | ⟨8, _⟩ => c8

/-- Nine [n, 1] columns laid side by side, read at (r, k), is the k-th column at (r, 0). -/
theorem nine_cols {n : Nat} (c0 c1 c2 c3 c4 c5 c6 c7 c8 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩,
      ⟨⟨2, ![n, 1]⟩, c5⟩, ⟨⟨2, ![n, 1]⟩, c6⟩, ⟨⟨2, ![n, 1]⟩, c7⟩, ⟨⟨2, ![n, 1]⟩, c8⟩] : List ((s : Shape) × (s.Idx → α))).map (·.1)) ⟨2, ![n, 9]⟩ 1)
    (r : Fin n) (k : Fin 9) :
    concatenate ⟨2, ![n, 9]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩,
      ⟨⟨2, ![n, 1]⟩, c5⟩, ⟨⟨2, ![n, 1]⟩, c6⟩, ⟨⟨2, ![n, 1]⟩, c7⟩, ⟨⟨2, ![n, 1]⟩, c8⟩] h (ix2 r k)
      = (pick9 c0 c1 c2 c3 c4 c5 c6 c7 c8 k) (ix2 r (0 : Fin 1)) := by
  have hi : ∀ b : Fin 2, b.cast rfl ≠ (1 : Fin 2) → ((ix2 r (0 : Fin 1) : (⟨2, ![n, 1]⟩ : Shape).Idx) b).val = ((ix2 r k : (⟨2, ![n, 9]⟩ : Shape).Idx) (b.cast rfl)).val := by
    intro b hb
    match b, hb with
    | ⟨0, _⟩, _ => rfl
    | ⟨1, _⟩, hb => exact absurd rfl hb
  match k with
  | ⟨0, _⟩ => exact concatenate_apply_piece 1 _ h _ 0 (by simp) _ c0 rfl rfl 0 rfl (ix2 r 0) hi rfl
  | ⟨1, _⟩ => exact concatenate_apply_piece 1 _ h _ 1 (by simp) _ c1 rfl rfl 1 rfl (ix2 r 0) hi rfl
  | ⟨2, _⟩ => exact concatenate_apply_piece 1 _ h _ 2 (by simp) _ c2 rfl rfl 2 rfl (ix2 r 0) hi rfl
  | ⟨3, _⟩ => exact concatenate_apply_piece 1 _ h _ 3 (by simp) _ c3 rfl rfl 3 rfl (ix2 r 0) hi rfl
  | ⟨4, _⟩ => exact concatenate_apply_piece 1 _ h _ 4 (by simp) _ c4 rfl rfl 4 rfl (ix2 r 0) hi rfl
  | ⟨5, _⟩ => exact concatenate_apply_piece 1 _ h _ 5 (by simp) _ c5 rfl rfl 5 rfl (ix2 r 0) hi rfl
  | ⟨6, _⟩ => exact concatenate_apply_piece 1 _ h _ 6 (by simp) _ c6 rfl rfl 6 rfl (ix2 r 0) hi rfl
  | ⟨7, _⟩ => exact concatenate_apply_piece 1 _ h _ 7 (by simp) _ c7 rfl rfl 7 rfl (ix2 r 0) hi rfl
  | ⟨8, _⟩ => exact concatenate_apply_piece 1 _ h _ 8 (by simp) _ c8 rfl rfl 8 rfl (ix2 r 0) hi rfl

end Layout

/-! ## The body's payloads at a row -/

variable {F : FTy → Type} [FloatOps F]

/-- What the body stores, as one function of the block it loaded. -/
def Pay (X : Vec F S12288x3 .f32) : FVec F S12288x9 .f32 :=
  k0_pay1 (k0_pay3 X) (k0_pay4 X) (k0_pay5 X) (k0_pay9 X) (k0_pay10 X) (k0_pay12 X) (k0_pay13 X) (k0_pay14 X) (k0_pay15 X)
    (k0_pay16 X) (k0_pay17 X) (k0_pay18 X)

/-- The shifted block's column k as a vector, at r: the block at (r, k) plus ε. -/
theorem x_at (X : Vec F S12288x3 .f32) (r : Fin 12288) :
    k0_pay3 X (ix1 r) = FloatOps.addf (X (ix2 r (0 : Fin 3))) (FloatOps.ofBits .f32 0x2EDBE6FF#32) := by
  unfold k0_pay3
  refine (col_to_vec _ _ r).trans ?_
  exact col_of (0 : Fin 3) (k0_pay2 X) slices_S12288x3_o0_0_S12288x1 r 0
theorem y_at (X : Vec F S12288x3 .f32) (r : Fin 12288) :
    k0_pay4 X (ix1 r) = FloatOps.addf (X (ix2 r (1 : Fin 3))) (FloatOps.ofBits .f32 0x2EDBE6FF#32) := by
  unfold k0_pay4
  refine (col_to_vec _ _ r).trans ?_
  exact col_of (1 : Fin 3) (k0_pay2 X) slices_S12288x3_o0_1_S12288x1 r 0
theorem z_at (X : Vec F S12288x3 .f32) (r : Fin 12288) :
    k0_pay5 X (ix1 r) = FloatOps.addf (X (ix2 r (2 : Fin 3))) (FloatOps.ofBits .f32 0x2EDBE6FF#32) := by
  unfold k0_pay5
  refine (col_to_vec _ _ r).trans ?_
  exact col_of (2 : Fin 3) (k0_pay2 X) slices_S12288x3_o0_2_S12288x1 r 0

/-- THE STORE AT AN ENTRY: row r, place k of what the body stores is the k-th row entry of row r of what it loaded.
    Place k of the nine columns laid side by side is column k, which is the k-th result vector at r; that vector is
    pointwise arithmetic on the three coordinate vectors, which at r are the shifted inputs of row r. -/
theorem pay_apply (X : Vec F S12288x3 .f32) (r : Fin 12288) (k : Fin 9) :
    Pay X (ix2 r k) = Cert.Spec.kerRow (X (ix2 r (0 : Fin 3))) (X (ix2 r (1 : Fin 3))) (X (ix2 r (2 : Fin 3))) k := by
  unfold Pay k0_pay1
  obtain ⟨k, hk⟩ := k
  interval_cases k <;>
  · refine (nine_cols _ _ _ _ _ _ _ _ _ _ r _).trans ?_
    simp only [pick9]
    refine (vec_to_col _ _ r 0).trans ?_
    simp only [k0_pay6, k0_pay7, k0_pay8, k0_pay9, k0_pay10, k0_pay11, k0_pay12, k0_pay13, k0_pay14, k0_pay15, k0_pay16, k0_pay17,
      k0_pay18, addf, subf, mulf, divf, sqrt, sin, cos, broadcast, x_at, y_at, z_at]
    rfl

end Cert.Kernel.PayRow

end
-- ==== Proof.BodyK.lean ====
/-
  The frame of the program: it runs to the end, faults nowhere and leaves its argument as it was — and, for the
  value claim, what its result array holds afterwards.

  The program is one pipelined region over 326 grid points followed by one host reshape. At point t the pipeline
  fetches rows 12288·t … of the [4000000, 3] argument into a [12288, 3] staging buffer, the body loads the whole
  buffer, computes the nine row entries of every row (PayRow: `Pay`) and stores the whole [12288, 9] result buffer,
  which the pipeline writes back onto rows 12288·t … of the [4000000, 9] result. 4000000 is not a multiple of 12288:
  the last block overhangs both arrays by 5888 rows. There the fetch fills only the buffer's first 6400 rows with
  the array's rows and leaves words nothing names in the rest; the body computes on all 12288 rows; the write-back
  moves only the first 6400 rows of the result buffer. Since the body works row by row (`pay_apply`), the rows that
  are written back do not depend on the unnamed rows of the input buffer (`cut_pay_congr`): that is the whole
  content of the body obligation beyond running the body.
-/
import proofs.«148425_j18983755448816_2_alg».proof.Proof.Gen.Kernel.Frame
import proofs.«148425_j18983755448816_2_alg».proof.Proof.Gen.Kernel.Skeleton
import proofs.«148425_j18983755448816_2_alg».proof.Proof.PayRowK
import Idealize.ShloMosaic.Lib.Pipeline.Frame
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen Cert.Kernel.PayRow
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two accesses: each the whole buffer -/

abbrev rIn : Rect S12288x3 := Rect.unit (s := S12288x3) ![0, 0] S12288x3.size inb_S12288x3_S12288x3_0_0
abbrev rOut : Rect S12288x9 := Rect.unit (s := S12288x9) ![0, 0] S12288x9.size inb_S12288x9_S12288x9_0_0

theorem off_zero : (![0, 0] : Fin 2 → Nat) = fun _ => 0 := funext fun a => by fin_cases a <;> rfl

/-- The one store covers the result buffer. -/
theorem cover_out (p0 : Vec F S12288x9 .f32) (y : S12288x9.Idx) :
    ∃ pc ∈ ([⟨rOut, p0⟩] : List (View.Piece (Elt F) S12288x9 .f32)), y ∈ pc.1.set :=
  View.cover_of_tiled [⟨rOut, p0⟩] S12288x9.size (by rfl) y

/-! ## The body's triple -/

set_option maxHeartbeats 1000000 in
/-- The body on whole staging buffers, the input's holding `x0` and the result's anything, runs to the continuation
    with the input's as it was and the result's holding `Pay x0`: one whole load, arithmetic, one whole store. -/
theorem sound_kernel (c : Dev nD) (E : Set ℕ) (i : grid0.Coords) (arg1 : Memref sig .tc .vmem S12288x3 .f32) (harg1 : arg1.IsWhole)
    (arg2 : Memref sig .tc .vmem S12288x9 .f32) (harg2 : arg2.IsWhole) (x0 : Vec F S12288x3 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (Pay x0)) -∗ K ⟨⟩))
      ⊢ wp frame (wpE (defs₀ (F := F)) Variants.none c none) E (cc0__getv_kernel i arg1 harg1 arg2 harg2) K := by
  simp only [cc0__getv_kernel_eq_skeleton]; unfold cc0__getv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (cover_out _), View.canon_unit_zero off_zero]
  sl_unfold_words
  simp only [View.readAt_eq_ld, View.ld_unit_zero (S := S12288x3) off_zero]
  rfl

/-! ## The cuts of the two windows agree

At every grid point both windows move the same rows (the two arrays have 4000000 rows, the two blocks 12288) and
all the columns of their blocks. -/

/-- Along the rows the two windows are cut alike, and the input's three columns are never cut. -/
theorem xsize_facts : ∀ t : Fin cfg0.N, win0_0.xsize (grid0.coords t) 0 = win0_1.xsize (grid0.coords t) 0
    ∧ win0_0.xsize (grid0.coords t) 1 = 3 :=
  (by decide +kernel : ∀ t : Fin grid0.N, win0_0.xsize (grid0.coords t) 0 = win0_1.xsize (grid0.coords t) 0
    ∧ win0_0.xsize (grid0.coords t) 1 = 3)

/-- THE ROWS WRITTEN BACK DO NOT SEE THE UNNAMED ROWS: the part of the stored block that the write-back at point t
    moves is the same whatever fills the input buffer past the rows the fetch filled — entry (r, k) of the store
    depends on row r of the input buffer only, and a moved row of the result is a filled row of the input. -/
theorem cut_pay_congr (t : Fin cfg0.N) (d d' : S12288x3.Idx → Elt F .f32)
    (g : (win0_0.xblock (grid0.coords t)).Idx → Elt F .f32) :
    win0_1.cut (grid0.coords t) (Pay (win0_0.fill (grid0.coords t) d g))
      = win0_1.cut (grid0.coords t) (Pay (win0_0.fill (grid0.coords t) d' g)) := by
  funext j
  obtain ⟨r, k, hrk⟩ : ∃ (r : Fin 12288) (k : Fin 9), win0_1.xinj (grid0.coords t) j = ix2 r k := ⟨_, _, eq_ix2 _⟩
  have hr : r.val < win0_0.xsize (grid0.coords t) 0 := by
    rw [(xsize_facts t).1]
    have h0 : r = (win0_1.xinj (grid0.coords t) j) 0 := by rw [hrk]; rfl
    rw [h0]; exact (j 0).isLt
  have hmv : ∀ q : Fin 3, win0_0.moved (grid0.coords t) (ix2 r q) = true := fun q =>
    (win0_0.moved_iff (grid0.coords t) _).mpr fun a => by
      match a with
      | ⟨0, _⟩ => exact hr
      | ⟨1, _⟩ => show q.val < win0_0.xsize (grid0.coords t) 1; rw [(xsize_facts t).2]; exact q.isLt
  have e : ∀ q : Fin 3, win0_0.fill (grid0.coords t) d g (ix2 r q) = win0_0.fill (grid0.coords t) d' g (ix2 r q) := fun q => by
    unfold Window.fill; rw [dif_pos (hmv q), dif_pos (hmv q)]
  show Pay (win0_0.fill (grid0.coords t) d g) (win0_1.xinj (grid0.coords t) j)
    = Pay (win0_0.fill (grid0.coords t) d' g) (win0_1.xinj (grid0.coords t) j)
  rw [hrk, pay_apply, pay_apply, e 0, e 1, e 2]

/-! ## The pipeline's proof data -/

/-- The input's block at point t as a whole staging buffer: the array's rows where the fetch lands them, the zero
    word on the rows past the array's end (a filler nothing reads). -/
def inFull (c : Dev nD) (t : Fin cfg0.N) : S12288x3.Idx → Elt F .f32 :=
  win0_0.fill (grid0.coords t) (fun _ => FloatOps.ofBits .f32 0x00000000#32) (iblk m c 0 t)

/-- The proof data of the one pipeline on core c: the arrays as the region finds them; after the body at point t the
    input's buffer at its block filled out, the result's at the body's store of that; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => Pay (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inFull m c t := by dsimp only [dats]
theorem after0_1 (c : Dev nD) (t : Fin cfg0.N) : (dats m 0 c).after 1 t = Pay (inFull m c t) := by dsimp only [dats]

/-- The input's buffer when the body runs: fetched at every point, so the array's block on the rows the fetch
    fills and whatever the buffer held (`d`) on the others. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-! ## The body obligation -/

/-- At every point: the input's buffer arrives holding its block filled out with some `d`, the result's anything;
    the body leaves the first as it was and the second at its store of it; on the rows the transfers move that is
    the proof data's `after` (`Window.cut_fill`, `cut_pay_congr`), which is all the two clipped windows' obligations
    state. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before0_0 m c t d0]
  iapply (sound_kernel (F := F) c Set.univ (grid0.coords t) _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  have h0 : win0_0.cut (grid0.coords t) ((dats m 0 c).after 0 t) = iblk m c 0 t := by
    rw [after0_0]; exact win0_0.cut_fill _ _ _
  have h1 : win0_1.fill (grid0.coords t) (Pay (win0_0.fill (grid0.coords t) d0 (iblk m c 0 t)))
      (win0_1.cut (grid0.coords t) ((dats m 0 c).after 1 t)) = Pay (win0_0.fill (grid0.coords t) d0 (iblk m c 0 t)) := by
    rw [after0_1]
    exact win0_1.fill_congr_cut _ (cut_pay_congr t _ _ _)
  isplitl [H0]
  · iexists d0
    change _ ⊢ owns (c : Thread nD τ) (st0_0 t) fullShare (win0_0.fill (grid0.coords t) d0 (win0_0.cut (grid0.coords t) ((dats m 0 c).after 0 t)))
    rw [h0]; try iexact H0
  · iexists Pay (win0_0.fill (grid0.coords t) d0 (iblk m c 0 t))
    change _ ⊢ owns (c : Thread nD τ) (st0_1 t) fullShare (win0_1.fill (grid0.coords t) (Pay (win0_0.fill (grid0.coords t) d0 (iblk m c 0 t)))
      (win0_1.cut (grid0.coords t) ((dats m 0 c).after 1 t)))
    rw [h1]; try iexact H1

/-! ## The run and the frame -/

set_option backward.isDefEq.respectTransparency.types false in
/-- For any values, from any memory with zero counters: every weakly fair execution of @main terminates, and every
    final state has each array of the pipeline at what the proof data compute and every other unscoped buffer as
    the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs, faults nowhere, and its argument ends as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.RefRow.lean ====
/-
  The reference program read at one index.

  The reference takes a row (a, b, c) of its input, shifts it by the small constant to v = (a + ε, b + ε, c + ε),
  forms s = 0 + Σ v_k², θ = √s, the skew-symmetric matrix K of v row by row (three columns joined into each row,
  three rows joined into the matrix), the product K·K as a sum over the middle index, the coefficients
  B = (1 - cos θ) / s and C = (1 - sin θ / θ) / s, the identity matrix from two index counters, and answers
  (I + B·K) + C·K². This module follows one entry (n, i, j) of the result back through the operations to the three
  inputs of row n, and finds `Spec.refEntry` of them.
-/
import proofs.«148425_j18983755448816_2_alg».proof.Proof.Gen.ReferenceIdeal.Read
import proofs.«148425_j18983755448816_2_alg».proof.Proof.Spec
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The input array's type: 4000000 rows of three extended reals. -/
abbrev In : Type := (⟨S4000000x3, .f32⟩ : BufTy).Contents (Elt Ideal)

/-! ## The shifted row and its sum of squares -/

/-- Row `n` of the input, shifted: the vector v. -/
def row (x0 : In) (n : Fin 4000000) : Fin 3 → EReal :=
  Cert.Spec.shifted (x0 (ix2 n 0)) (x0 (ix2 n 1)) (x0 (ix2 n 2))

/-- Entry k of the shifted row is the input's entry plus the constant. -/
theorem row_apply (x0 : In) (n : Fin 4000000) (k : Fin 3) : row x0 n k = x0 (ix2 n k) + Cert.Spec.epsW := by
  match k with
  | ⟨0, _⟩ => rfl
  | ⟨1, _⟩ => rfl
  | ⟨2, _⟩ => rfl

/-- The shifted input array at (n, k) is entry k of the shifted row. -/
theorem v1_at (x0 : In) (n : Fin 4000000) (k : Fin 3) : val_main_v1 (F := Ideal) x0 (ix2 n k) = row x0 n k := by
  rw [row_apply, val_main_v1_apply, val_main_v0_apply, val_main_cst_apply]
  rfl

/-- The row's sum of squares, added onto the zero word. -/
def ss (x0 : In) (n : Fin 4000000) : EReal := Cert.Spec.zeroW + ∑ k : Fin 3, row x0 n k * row x0 n k

/-- The sum over the second axis reads row n's three squares. -/
theorem idx_v3 (n : Fin 4000000) (k : Fin 3) : idx_main_v3 (idx_main_v4 (ix2 n (0 : Fin 1))) k = ix2 n k :=
  funext fun a => Fin.ext (by match a with | ⟨0, _⟩ => rfl | ⟨1, _⟩ => rfl)

/-- The sum of squares, kept as a column, at (n, 0). -/
theorem v4_at (x0 : In) (n : Fin 4000000) : val_main_v4 (F := Ideal) x0 (ix2 n (0 : Fin 1)) = ss x0 n := by
  rw [val_main_v4_apply, val_main_v3_apply, val_main_cst_0_apply]
  unfold ss
  refine congrArg (_ + ·) (Finset.sum_congr rfl fun k _ => ?_)
  rw [idx_v3, val_main_v2_apply, v1_at]
  rfl

/-! ## Joining three columns into a row, and three slabs into a matrix -/

section Join
variable {α : Type}

/-- Three columns joined along the second axis: entry (n, k) of the result is column k at (n, 0). -/
theorem join_cols (c0 c1 c2 : S4000000x1.Idx → α) (n : Fin 4000000) (k : Fin 3) :
    concatenate S4000000x3 1 [⟨S4000000x1, c0⟩, ⟨S4000000x1, c1⟩, ⟨S4000000x1, c2⟩]
        concatenates_S4000000x1_S4000000x1_S4000000x1_S4000000x3_d1 (ix2 n k)
      = (![c0, c1, c2] k) (ix2 n (0 : Fin 1)) := by
  match k with
  | ⟨0, _⟩ =>
    exact concatenate_apply_piece (1 : Fin S4000000x3.rank) _ _ _ 0 (by show (0 : Nat) < 3; omega) S4000000x1 c0 rfl rfl 0 rfl
      (ix2 n (0 : Fin 1)) (fun b hb => by match b with | ⟨0, _⟩ => rfl | ⟨1, _⟩ => exact absurd rfl hb) rfl
  | ⟨1, _⟩ =>
    exact concatenate_apply_piece (1 : Fin S4000000x3.rank) _ _ _ 1 (by show (1 : Nat) < 3; omega) S4000000x1 c1 rfl rfl 1 rfl
      (ix2 n (0 : Fin 1)) (fun b hb => by match b with | ⟨0, _⟩ => rfl | ⟨1, _⟩ => exact absurd rfl hb) rfl
  | ⟨2, _⟩ =>
    exact concatenate_apply_piece (1 : Fin S4000000x3.rank) _ _ _ 2 (by show (2 : Nat) < 3; omega) S4000000x1 c2 rfl rfl 2 rfl
      (ix2 n (0 : Fin 1)) (fun b hb => by match b with | ⟨0, _⟩ => rfl | ⟨1, _⟩ => exact absurd rfl hb) rfl

/-- Three one-row slabs joined along the middle axis: entry (n, i, k) of the result is slab i at (n, 0, k). -/
theorem join_rows (r0 r1 r2 : S4000000x1x3.Idx → α) (n : Fin 4000000) (i k : Fin 3) :
    concatenate S4000000x3x3 1 [⟨S4000000x1x3, r0⟩, ⟨S4000000x1x3, r1⟩, ⟨S4000000x1x3, r2⟩]
        concatenates_S4000000x1x3_S4000000x1x3_S4000000x1x3_S4000000x3x3_d1 (ix3 n i k)
      = (![r0, r1, r2] i) (ix3 n (0 : Fin 1) k) := by
  match i with
  | ⟨0, _⟩ =>
    exact concatenate_apply_piece (1 : Fin S4000000x3x3.rank) _ _ _ 0 (by show (0 : Nat) < 3; omega) S4000000x1x3 r0 rfl rfl 0 rfl
      (ix3 n (0 : Fin 1) k)
      (fun b hb => by match b with | ⟨0, _⟩ => rfl | ⟨1, _⟩ => exact absurd rfl hb | ⟨2, _⟩ => rfl) rfl
  | ⟨1, _⟩ =>
    exact concatenate_apply_piece (1 : Fin S4000000x3x3.rank) _ _ _ 1 (by show (1 : Nat) < 3; omega) S4000000x1x3 r1 rfl rfl 1 rfl
      (ix3 n (0 : Fin 1) k)
      (fun b hb => by match b with | ⟨0, _⟩ => rfl | ⟨1, _⟩ => exact absurd rfl hb | ⟨2, _⟩ => rfl) rfl
  | ⟨2, _⟩ =>
    exact concatenate_apply_piece (1 : Fin S4000000x3x3.rank) _ _ _ 2 (by show (2 : Nat) < 3; omega) S4000000x1x3 r2 rfl rfl 2 rfl
      (ix3 n (0 : Fin 1) k)
      (fun b hb => by match b with | ⟨0, _⟩ => rfl | ⟨1, _⟩ => exact absurd rfl hb | ⟨2, _⟩ => rfl) rfl

end Join

/-! ## The three coordinates of the shifted row, as arrays of 4000000 numbers, and their negations -/

/-- A column slice of the shifted input, flattened, at n reads (n, 0), (n, 1) or (n, 2). -/
theorem idx_v7 (n : Fin 4000000) : idx_main_v6 (idx_main_v7 (ix1 n)) = ix2 n (0 : Fin 3) :=
  funext fun a => Fin.ext (by match a with | ⟨0, _⟩ => exact Nat.div_one _ | ⟨1, _⟩ => rfl)
theorem idx_v9 (n : Fin 4000000) : idx_main_v8 (idx_main_v9 (ix1 n)) = ix2 n (1 : Fin 3) :=
  funext fun a => Fin.ext (by match a with | ⟨0, _⟩ => exact Nat.div_one _ | ⟨1, _⟩ => rfl)
theorem idx_v11 (n : Fin 4000000) : idx_main_v10 (idx_main_v11 (ix1 n)) = ix2 n (2 : Fin 3) :=
  funext fun a => Fin.ext (by match a with | ⟨0, _⟩ => exact Nat.div_one _ | ⟨1, _⟩ => rfl)

/-- The first coordinate x of row n. -/
theorem v7_at (x0 : In) (n : Fin 4000000) : val_main_v7 (F := Ideal) x0 (ix1 n) = row x0 n 0 := by
  rw [val_main_v7_apply, val_main_v6_apply, idx_v7, v1_at]
/-- The second coordinate y of row n. -/
theorem v9_at (x0 : In) (n : Fin 4000000) : val_main_v9 (F := Ideal) x0 (ix1 n) = row x0 n 1 := by
  rw [val_main_v9_apply, val_main_v8_apply, idx_v9, v1_at]
/-- The third coordinate z of row n. -/
theorem v11_at (x0 : In) (n : Fin 4000000) : val_main_v11 (F := Ideal) x0 (ix1 n) = row x0 n 2 := by
  rw [val_main_v11_apply, val_main_v10_apply, idx_v11, v1_at]

/-- A length-4000000 array kept as a column reads, at (n, 0), the array at n. -/
theorem idx_col (n : Fin 4000000) : idx_main_v14 (ix2 n (0 : Fin 1)) = ix1 n :=
  funext fun a => Fin.ext (by match a with | ⟨0, _⟩ => rfl)

/-- The zero column. -/
theorem zero_at (n : Fin 4000000) : val_main_v14 (F := Ideal) (ix2 n (0 : Fin 1)) = Cert.Spec.zeroW := by
  rw [val_main_v14_apply, val_main_v12_apply, val_main_cst_1_apply]
  rfl

/-! ## The rows of the skew-symmetric matrix, and the matrix -/

/-- The negated third coordinate, as a column. -/
theorem v15_at (x0 : In) (n : Fin 4000000) : val_main_v15 (F := Ideal) x0 (ix2 n (0 : Fin 1)) = -(row x0 n 2) := by
  rw [val_main_v15_apply, show idx_main_v15 (ix2 n (0 : Fin 1)) = ix1 n from idx_col n, val_main_v13_apply, v11_at]
  rfl
/-- The second coordinate, as a column. -/
theorem v16_at (x0 : In) (n : Fin 4000000) : val_main_v16 (F := Ideal) x0 (ix2 n (0 : Fin 1)) = row x0 n 1 := by
  rw [val_main_v16_apply, show idx_main_v16 (ix2 n (0 : Fin 1)) = ix1 n from idx_col n, v9_at]
/-- The third coordinate, as a column. -/
theorem v19_at (x0 : In) (n : Fin 4000000) : val_main_v19 (F := Ideal) x0 (ix2 n (0 : Fin 1)) = row x0 n 2 := by
  rw [val_main_v19_apply, show idx_main_v19 (ix2 n (0 : Fin 1)) = ix1 n from idx_col n, v11_at]
/-- The zero column, again. -/
theorem v20_at (n : Fin 4000000) : val_main_v20 (F := Ideal) (ix2 n (0 : Fin 1)) = Cert.Spec.zeroW := by
  rw [val_main_v20_apply, val_main_v12_apply, val_main_cst_1_apply]
  rfl
/-- The negated first coordinate, as a column. -/
theorem v21_at (x0 : In) (n : Fin 4000000) : val_main_v21 (F := Ideal) x0 (ix2 n (0 : Fin 1)) = -(row x0 n 0) := by
  rw [val_main_v21_apply, show idx_main_v21 (ix2 n (0 : Fin 1)) = ix1 n from idx_col n, val_main_v18_apply, v7_at]
  rfl
/-- The negated second coordinate, as a column. -/
theorem v24_at (x0 : In) (n : Fin 4000000) : val_main_v24 (F := Ideal) x0 (ix2 n (0 : Fin 1)) = -(row x0 n 1) := by
  rw [val_main_v24_apply, show idx_main_v24 (ix2 n (0 : Fin 1)) = ix1 n from idx_col n, val_main_v23_apply, v9_at]
  rfl
/-- The first coordinate, as a column. -/
theorem v25_at (x0 : In) (n : Fin 4000000) : val_main_v25 (F := Ideal) x0 (ix2 n (0 : Fin 1)) = row x0 n 0 := by
  rw [val_main_v25_apply, show idx_main_v25 (ix2 n (0 : Fin 1)) = ix1 n from idx_col n, v7_at]
/-- The zero column, a third time. -/
theorem v26_at (n : Fin 4000000) : val_main_v26 (F := Ideal) (ix2 n (0 : Fin 1)) = Cert.Spec.zeroW := by
  rw [val_main_v26_apply, val_main_v12_apply, val_main_cst_1_apply]
  rfl

/-- The first row (0, -z, y) of the matrix K. -/
theorem v17_at (x0 : In) (n : Fin 4000000) (k : Fin 3) :
    val_main_v17 (F := Ideal) x0 (ix2 n k) = Cert.Spec.skew (row x0 n) 0 k := by
  unfold val_main_v17
  rw [join_cols]
  match k with
  | ⟨0, _⟩ => exact zero_at n
  | ⟨1, _⟩ => exact v15_at x0 n
  | ⟨2, _⟩ => exact v16_at x0 n
/-- The second row (z, 0, -x). -/
theorem v22_at (x0 : In) (n : Fin 4000000) (k : Fin 3) :
    val_main_v22 (F := Ideal) x0 (ix2 n k) = Cert.Spec.skew (row x0 n) 1 k := by
  unfold val_main_v22
  rw [join_cols]
  match k with
  | ⟨0, _⟩ => exact v19_at x0 n
  | ⟨1, _⟩ => exact v20_at n
  | ⟨2, _⟩ => exact v21_at x0 n
/-- The third row (-y, x, 0). -/
theorem v27_at (x0 : In) (n : Fin 4000000) (k : Fin 3) :
    val_main_v27 (F := Ideal) x0 (ix2 n k) = Cert.Spec.skew (row x0 n) 2 k := by
  unfold val_main_v27
  rw [join_cols]
  match k with
  | ⟨0, _⟩ => exact v24_at x0 n
  | ⟨1, _⟩ => exact v25_at x0 n
  | ⟨2, _⟩ => exact v26_at n

/-- A row kept as a one-row slab reads, at (n, 0, k), the row at (n, k). -/
theorem idx_slab (n : Fin 4000000) (k : Fin 3) : idx_main_v28 (ix3 n (0 : Fin 1) k) = ix2 n k :=
  funext fun a => Fin.ext (by match a with | ⟨0, _⟩ => rfl | ⟨1, _⟩ => rfl)

/-- The matrix K of row n: entry (i, k). -/
theorem v31_at (x0 : In) (n : Fin 4000000) (i k : Fin 3) :
    val_main_v31 (F := Ideal) x0 (ix3 n i k) = Cert.Spec.skew (row x0 n) i k := by
  unfold val_main_v31
  rw [join_rows]
  match i with
  | ⟨0, _⟩ =>
    show val_main_v28 (F := Ideal) x0 (ix3 n (0 : Fin 1) k) = _
    rw [val_main_v28_apply, idx_slab, v17_at]; rfl
  | ⟨1, _⟩ =>
    show val_main_v29 (F := Ideal) x0 (ix3 n (0 : Fin 1) k) = _
    rw [val_main_v29_apply, show idx_main_v29 (ix3 n (0 : Fin 1) k) = ix2 n k from idx_slab n k, v22_at]; rfl
  | ⟨2, _⟩ =>
    show val_main_v30 (F := Ideal) x0 (ix3 n (0 : Fin 1) k) = _
    rw [val_main_v30_apply, show idx_main_v30 (ix3 n (0 : Fin 1) k) = ix2 n k from idx_slab n k, v27_at]; rfl

/-- The product K·K of row n: entry (i, j) is the sum over the middle index. -/
theorem v32_at (x0 : In) (n : Fin 4000000) (i j : Fin 3) :
    val_main_v32 (F := Ideal) x0 (ix3 n i j)
      = ∑ k : Fin 3, Cert.Spec.skew (row x0 n) i k * Cert.Spec.skew (row x0 n) k j := by
  rw [val_main_v32_apply]
  refine Finset.sum_congr rfl fun k _ => ?_
  have el : lidx_main_v32 (ix3 n i j) k = ix3 n i k :=
    funext fun a => Fin.ext (by match a with | ⟨0, _⟩ => rfl | ⟨1, _⟩ => rfl | ⟨2, _⟩ => rfl)
  have er : ridx_main_v32 (ix3 n i j) k = ix3 n k j :=
    funext fun a => Fin.ext (by match a with | ⟨0, _⟩ => rfl | ⟨1, _⟩ => rfl | ⟨2, _⟩ => rfl)
  rw [el, er, v31_at, v31_at]

/-! ## The identity matrix -/

/-- The identity matrix is the same for every row: entry (n, i, j) reads the 3×3 table at (i, j). -/
theorem idx_eye (n : Fin 4000000) (i j : Fin 3) : idx_main_v48 (ix3 n i j) = ix2 i j :=
  funext fun a => Fin.ext (by match a with | ⟨0, _⟩ => rfl | ⟨1, _⟩ => rfl)

/-- The table compares the row counter with the column counter and reads the answer as a number: 1 on the diagonal,
    0 off it. -/
theorem v47_at (i j : Fin 3) : val_main_v47 (F := Ideal) (ix2 i j) = Cert.Spec.eye i j := by
  rw [val_main_v47_apply, val_main_v46_apply, val_main_v45_apply, val_main_v42_apply, val_main_v43_apply,
    val_main_v44_apply, val_main_c_apply]
  show (((IntOp.cmpi .eq (IntOp.addi (BitVec.ofNat 32 i.val) 0#32) (BitVec.ofNat 32 j.val)).toNat : ℝ) : EReal)
    = if i = j then 1 else 0
  match i, j with
  | ⟨0, _⟩, ⟨0, _⟩ => simp [IntOp.cmpi, IntOp.addi]
  | ⟨0, _⟩, ⟨1, _⟩ => simp [IntOp.cmpi, IntOp.addi]
  | ⟨0, _⟩, ⟨2, _⟩ => simp [IntOp.cmpi, IntOp.addi]
  | ⟨1, _⟩, ⟨0, _⟩ => simp [IntOp.cmpi, IntOp.addi]
  | ⟨1, _⟩, ⟨1, _⟩ => simp [IntOp.cmpi, IntOp.addi]
  | ⟨1, _⟩, ⟨2, _⟩ => simp [IntOp.cmpi, IntOp.addi]
  | ⟨2, _⟩, ⟨0, _⟩ => simp [IntOp.cmpi, IntOp.addi]
  | ⟨2, _⟩, ⟨1, _⟩ => simp [IntOp.cmpi, IntOp.addi]
  | ⟨2, _⟩, ⟨2, _⟩ => simp [IntOp.cmpi, IntOp.addi]

/-- The identity matrix at (n, i, j). -/
theorem v48_at (n : Fin 4000000) (i j : Fin 3) : val_main_v48 (F := Ideal) (ix3 n i j) = Cert.Spec.eye i j := by
  rw [val_main_v48_apply, idx_eye, v47_at]

/-! ## The angle and the two coefficients -/

/-- The angle θ = √s of row n. -/
def th (x0 : In) (n : Fin 4000000) : EReal := Ideal.sqrt (ss x0 n)
/-- The coefficient B = (1 - cos θ) / s. -/
def cB (x0 : In) (n : Fin 4000000) : EReal := Ideal.div (Cert.Spec.oneW - Ideal.cos (th x0 n)) (ss x0 n)
/-- The coefficient C = (1 - sin θ / θ) / s. -/
def cC (x0 : In) (n : Fin 4000000) : EReal :=
  Ideal.div (Cert.Spec.oneW - Ideal.div (Ideal.sin (th x0 n)) (th x0 n)) (ss x0 n)

/-- The angle, as a column. -/
theorem v5_at (x0 : In) (n : Fin 4000000) : val_main_v5 (F := Ideal) x0 (ix2 n (0 : Fin 1)) = th x0 n := by
  rw [val_main_v5_apply, v4_at]
  rfl

/-- The coefficient B, as a column. -/
theorem v38_at (x0 : In) (n : Fin 4000000) : val_main_v38 (F := Ideal) x0 (ix2 n (0 : Fin 1)) = cB x0 n := by
  rw [val_main_v38_apply, val_main_v37_apply, val_main_v36_apply, val_main_cst_2_apply, val_main_v35_apply, v5_at, v4_at]
  rfl

/-- The coefficient C, as a column. -/
theorem v41_at (x0 : In) (n : Fin 4000000) : val_main_v41 (F := Ideal) x0 (ix2 n (0 : Fin 1)) = cC x0 n := by
  rw [val_main_v41_apply, val_main_v40_apply, val_main_v39_apply, val_main_cst_3_apply, val_main_v34_apply,
    val_main_v33_apply, v5_at, v4_at]
  rfl

/-- A coefficient spread over the matrix reads, at (n, i, j), its column at (n, 0). -/
theorem idx_coef (n : Fin 4000000) (i j : Fin 3) : idx_main_v49 (idx_main_v50 (ix3 n i j)) = ix2 n (0 : Fin 1) :=
  funext fun a => Fin.ext (by match a with | ⟨0, _⟩ => rfl | ⟨1, _⟩ => rfl)

/-! ## The result -/

/-- Entry (i, j) of the reference's matrix for row n, in the row's own quantities. -/
theorem v56_at (x0 : In) (n : Fin 4000000) (i j : Fin 3) :
    val_main_v56 (F := Ideal) x0 (ix3 n i j)
      = (Cert.Spec.eye i j + cB x0 n * Cert.Spec.skew (row x0 n) i j)
        + cC x0 n * ∑ k : Fin 3, Cert.Spec.skew (row x0 n) i k * Cert.Spec.skew (row x0 n) k j := by
  rw [val_main_v56_apply, val_main_v52_apply, val_main_v55_apply, val_main_v51_apply, val_main_v48_apply, idx_eye, v47_at,
    val_main_v50_apply, val_main_v49_apply, idx_coef, v38_at, v31_at,
    val_main_v54_apply, val_main_v53_apply,
    show idx_main_v53 (idx_main_v54 (ix3 n i j)) = ix2 n (0 : Fin 1) from idx_coef n i j, v41_at, v32_at]
  rfl

/-- **The reference read at an index**: its result at row n, entry (i, j), is the specification's entry of that
    row's three inputs. -/
theorem ref_entry (x0 : (⟨S4000000x3, .f32⟩ : BufTy).Contents (Elt Ideal)) (n : Fin 4000000) (i j : Fin 3) :
    Cert.ReferenceIdeal.Read.val_main_v56 (F := Ideal) x0 (ValueIdx.ix3 n i j)
      = Cert.Spec.refEntry (x0 (ValueIdx.ix2 n (0 : Fin 3))) (x0 (ValueIdx.ix2 n (1 : Fin 3)))
          (x0 (ValueIdx.ix2 n (2 : Fin 3))) i j := by
  rw [v56_at]
  rfl

end Cert.ReferenceIdeal.RefValue

end
-- ==== Proof.RowAlgebra.lean ====
/-
  The two row formulas agree on the reals.

  For real inputs a, b, c both programs shift the row to (x, y, z) = (a + ε, b + ε, c + ε), form
  s = x² + y² + z² ≥ 0 and θ = √s, and answer the matrix I + B·K + C·K² with
      A = sin θ / θ,   B = (1 - cos θ) / s,   C = (1 - A) / s.
  The kernel takes its quotients through one reciprocal r = 1/s and θ⁻¹ as θ·r, and spells the nine entries out;
  the reference divides directly and multiplies K with itself.

  • s > 0: every intermediate value is a real; θ·(1/s) = 1/θ because θ² = s, so the two triples of
    coefficients are the same reals, and each entry is one polynomial identity in B, C, x, y, z.
  • s = 0, that is x = y = z = 0: the two programs pass through different junk values and still agree.
    Kernel: r = 1/0 = ⊤, θ·r = 0·⊤ = 0, A = 0, B = (1 - 1)·⊤ = 0, C = 1·⊤ = ⊤, and the entries are
    1 + ⊤·(0 - 0) = 1 and 0·0 + ⊤·0 = 0. Reference: A = 0/0 = ⊥, B = 0/0 = ⊥, C = (1 - ⊥)/0 = ⊤/0 = ⊤,
    K = 0, so (I + ⊥·0) + ⊤·0 = I. Both are the identity matrix.
-/
import proofs.«148425_j18983755448816_2_alg».proof.Proof.Spec

noncomputable section

open scoped BigOperators

namespace Cert.RowAlgebra

open Idealize.ShloMosaic Cert.Spec

/-! ### The three constants as numbers -/

theorem zeroW_eq : zeroW = 0 := by
  simp [zeroW, Ideal.ofBits, Ideal.ieee]

theorem oneW_eq : oneW = 1 := by
  simp [oneW, Ideal.ofBits, Ideal.ieee, -EReal.coe_mul]; norm_num

/-- The shift ε is a finite number (its value plays no part). -/
theorem epsW_finite : ∃ e : ℝ, epsW = (e : EReal) := by
  simp [epsW, Ideal.ofBits, Ideal.ieee, -EReal.coe_mul]

/-! ### Both programs as extended-real arithmetic on the shifted row -/

/-- The sum of squares. -/
def sq3 (x y z : EReal) : EReal := x * x + y * y + z * z

/-- The kernel's coefficients from s: through the one reciprocal 1/s, θ⁻¹ as θ·(1/s). -/
def kerB (s : EReal) : EReal := (1 - Ideal.cos (Ideal.sqrt s)) * Ideal.div 1 s
def kerA (s : EReal) : EReal := Ideal.sin (Ideal.sqrt s) * (Ideal.sqrt s * Ideal.div 1 s)
def kerC (s : EReal) : EReal := (1 - kerA s) * Ideal.div 1 s

/-- The kernel's nine entries from the two coefficients B, C and the shifted row. -/
def kerOut (B C x y z : EReal) : Fin 9 → EReal :=
  ![1 + C * (0 - (y * y + z * z)),
    (0 - B) * z + C * (x * y),
    B * y + C * (x * z),
    B * z + C * (x * y),
    1 + C * (0 - (x * x + z * z)),
    (0 - B) * x + C * (y * z),
    (0 - B) * y + C * (x * z),
    B * x + C * (y * z),
    1 + C * (0 - (x * x + y * y))]

theorem kerRow_eq (a b c : EReal) :
    kerRow (F := Ideal) (a : Ideal .f32) (b : Ideal .f32) (c : Ideal .f32)
      = kerOut (kerB (sq3 (a + epsW) (b + epsW) (c + epsW))) (kerC (sq3 (a + epsW) (b + epsW) (c + epsW)))
          (a + epsW) (b + epsW) (c + epsW) := by
  have h1 : Ideal.ofBits .f32 0x3F800000#32 = 1 := oneW_eq
  have h0 : Ideal.ofBits .f32 0x00000000#32 = 0 := zeroW_eq
  simp only [kerRow, Ideal.ofBits_def, Ideal.addf_def, Ideal.subf_def, Ideal.mulf_def, Ideal.divf_def,
    Ideal.sqrt_def, Ideal.sin_def, Ideal.cos_def, h1, h0]
  rfl

/-- The reference's coefficients from s: the quotients taken directly. -/
def refA (s : EReal) : EReal := Ideal.div (Ideal.sin (Ideal.sqrt s)) (Ideal.sqrt s)
def refB (s : EReal) : EReal := Ideal.div (1 - Ideal.cos (Ideal.sqrt s)) s
def refC (s : EReal) : EReal := Ideal.div (1 - refA s) s

/-- The reference's entry (i, j) from the two coefficients and the shifted row: (I + B·K) + C·K². -/
def refOut (B C x y z : EReal) (i j : Fin 3) : EReal :=
  (eye i j + B * skew ![x, y, z] i j) + C * ∑ k : Fin 3, skew ![x, y, z] i k * skew ![x, y, z] k j

theorem shifted_eq (a b c : EReal) : shifted a b c = ![a + epsW, b + epsW, c + epsW] := by
  funext k; fin_cases k <;> rfl

theorem refEntry_eq (a b c : EReal) (i j : Fin 3) :
    refEntry a b c i j
      = refOut (refB (sq3 (a + epsW) (b + epsW) (c + epsW))) (refC (sq3 (a + epsW) (b + epsW) (c + epsW)))
          (a + epsW) (b + epsW) (c + epsW) i j := by
  have hs : zeroW + ∑ k : Fin 3, ![a + epsW, b + epsW, c + epsW] k * ![a + epsW, b + epsW, c + epsW] k
      = sq3 (a + epsW) (b + epsW) (c + epsW) := by
    rw [zeroW_eq, zero_add, Fin.sum_univ_three]; rfl
  simp only [refEntry, shifted_eq, hs, oneW_eq]
  rfl

/-! ### The coefficients at a positive real s: every intermediate value is a real -/

theorem kerB_pos {s : ℝ} (hs : 0 < s) :
    kerB (s : EReal) = (((1 - Real.cos (Real.sqrt s)) * (1 / s) : ℝ) : EReal) := by
  rw [kerB, Ideal.sqrt_coe, if_neg (not_lt.mpr hs.le), Ideal.cos_coe, Ideal.div_coe hs.ne', one_mul]
  norm_cast

theorem refB_pos {s : ℝ} (hs : 0 < s) :
    refB (s : EReal) = (((1 - Real.cos (Real.sqrt s)) * (1 / s) : ℝ) : EReal) := by
  rw [refB, Ideal.sqrt_coe, if_neg (not_lt.mpr hs.le), Ideal.cos_coe, Ideal.div_coe hs.ne']
  norm_cast

theorem kerA_pos {s : ℝ} (hs : 0 < s) :
    kerA (s : EReal) = ((Real.sin (Real.sqrt s) * (1 / Real.sqrt s) : ℝ) : EReal) := by
  have hθ : Real.sqrt s ≠ 0 := (Real.sqrt_pos.mpr hs).ne'
  have h : Real.sqrt s * (1 / s) = 1 / Real.sqrt s := by
    field_simp
    exact (Real.sq_sqrt hs.le)
  rw [kerA, Ideal.sqrt_coe, if_neg (not_lt.mpr hs.le), Ideal.sin_coe, Ideal.div_coe hs.ne', one_mul,
    ← EReal.coe_mul, ← EReal.coe_mul, h]

theorem refA_pos {s : ℝ} (hs : 0 < s) :
    refA (s : EReal) = ((Real.sin (Real.sqrt s) * (1 / Real.sqrt s) : ℝ) : EReal) := by
  have hθ : Real.sqrt s ≠ 0 := (Real.sqrt_pos.mpr hs).ne'
  rw [refA, Ideal.sqrt_coe, if_neg (not_lt.mpr hs.le), Ideal.sin_coe, Ideal.div_coe hθ, ← EReal.coe_mul]

theorem kerC_pos {s : ℝ} (hs : 0 < s) :
    kerC (s : EReal) = (((1 - Real.sin (Real.sqrt s) * (1 / Real.sqrt s)) * (1 / s) : ℝ) : EReal) := by
  rw [kerC, kerA_pos hs, Ideal.div_coe hs.ne', one_mul]
  norm_cast

theorem refC_pos {s : ℝ} (hs : 0 < s) :
    refC (s : EReal) = (((1 - Real.sin (Real.sqrt s) * (1 / Real.sqrt s)) * (1 / s) : ℝ) : EReal) := by
  rw [refC, refA_pos hs, Ideal.div_coe hs.ne']
  norm_cast

/-! ### The nine entries over the reals -/

/-- With real coefficients and a real row, the kernel's spelled-out entry is the reference's matrix entry:
    both are the entry of I + B·K + C·K², and the two spellings differ by commutations and the
    distribution of a sign over a sum. -/
theorem kerOut_eq_refOut (B C x y z : ℝ) (i j : Fin 3) :
    kerOut (B : EReal) (C : EReal) (x : EReal) (y : EReal) (z : EReal) (flat i j)
      = refOut (B : EReal) (C : EReal) (x : EReal) (y : EReal) (z : EReal) i j := by
  fin_cases i <;> fin_cases j <;>
    simp [kerOut, refOut, flat, skew, eye, zeroW_eq, Fin.sum_univ_three] <;>
    (norm_cast; ring)

/-! ### The corner s = 0: the two programs pass through different junk values and still agree -/

theorem sqrt_zero : Ideal.sqrt 0 = 0 := by
  rw [← EReal.coe_zero, Ideal.sqrt_coe]; simp

theorem sin_zero : Ideal.sin 0 = 0 := by
  rw [← EReal.coe_zero, Ideal.sin_coe]; simp

theorem cos_zero : Ideal.cos 0 = 1 := by
  rw [← EReal.coe_zero, Ideal.cos_coe]; simp

theorem div_one_zero : Ideal.div 1 0 = ⊤ := by simp [Ideal.div]

theorem div_zero_zero : Ideal.div 0 0 = ⊥ := by simp [Ideal.div]

theorem div_top_zero : Ideal.div ⊤ 0 = ⊤ := by simp [Ideal.div]

theorem one_sub_one : (1 : EReal) - 1 = 0 := by
  rw [← EReal.coe_one, ← EReal.coe_sub, sub_self, EReal.coe_zero]

/-- Kernel: r = 1/0 = ⊤, and B = (1 - 1)·⊤ = 0·⊤ = 0. -/
theorem kerB_zero : kerB 0 = 0 := by
  rw [kerB, sqrt_zero, cos_zero, one_sub_one, zero_mul]

/-- Kernel: θ·r = 0·⊤ = 0, so A = 0·0 = 0. -/
theorem kerA_zero : kerA 0 = 0 := by
  rw [kerA, sqrt_zero, sin_zero, zero_mul]

/-- Kernel: C = (1 - 0)·⊤ = ⊤. -/
theorem kerC_zero : kerC 0 = ⊤ := by
  rw [kerC, kerA_zero, sub_zero, div_one_zero, one_mul]

/-- Reference: A = 0/0 = ⊥. -/
theorem refA_zero : refA 0 = ⊥ := by
  rw [refA, sqrt_zero, sin_zero, div_zero_zero]

/-- Reference: B = (1 - 1)/0 = 0/0 = ⊥. -/
theorem refB_zero : refB 0 = ⊥ := by
  rw [refB, sqrt_zero, cos_zero, one_sub_one, div_zero_zero]

/-- Reference: C = (1 - ⊥)/0 = ⊤/0 = ⊤. -/
theorem refC_zero : refC 0 = ⊤ := by
  have h : (1 : EReal) - ⊥ = ⊤ := by rw [← EReal.coe_one]; exact EReal.coe_sub_bot 1
  rw [refC, refA_zero, h, div_top_zero]

/-- Kernel at the zero row: 1 + ⊤·(0 - 0) = 1 on the diagonal, 0·0 + ⊤·0 = 0 off it. -/
theorem kerOut_zero (i j : Fin 3) : kerOut 0 ⊤ 0 0 0 (flat i j) = eye i j := by
  fin_cases i <;> fin_cases j <;> simp [kerOut, flat, eye]

/-- Reference at the zero row: K = 0, so (I + ⊥·0) + ⊤·0 = I. -/
theorem refOut_zero (i j : Fin 3) : refOut ⊥ ⊤ 0 0 0 i j = eye i j := by
  fin_cases i <;> fin_cases j <;> simp [refOut, skew, eye, zeroW_eq, Fin.sum_univ_three]

/-! ### The two rows agree at every real shifted row -/

theorem row_real (x y z : ℝ) (i j : Fin 3) :
    kerOut (kerB (sq3 x y z)) (kerC (sq3 x y z)) x y z (flat i j)
      = refOut (refB (sq3 x y z)) (refC (sq3 x y z)) x y z i j := by
  have hsq : sq3 (x : EReal) (y : EReal) (z : EReal) = ((x * x + y * y + z * z : ℝ) : EReal) := by
    rw [sq3]; norm_cast
  rw [hsq]
  rcases eq_or_lt_of_le (add_nonneg (add_nonneg (mul_self_nonneg x) (mul_self_nonneg y)) (mul_self_nonneg z)) with h0 | hpos
  · -- s = 0 forces x = y = z = 0
    have hx : x = 0 := mul_self_eq_zero.mp (by nlinarith [mul_self_nonneg x, mul_self_nonneg y, mul_self_nonneg z])
    have hy : y = 0 := mul_self_eq_zero.mp (by nlinarith [mul_self_nonneg x, mul_self_nonneg y, mul_self_nonneg z])
    have hz : z = 0 := mul_self_eq_zero.mp (by nlinarith [mul_self_nonneg x, mul_self_nonneg y, mul_self_nonneg z])
    rw [← h0, EReal.coe_zero, kerB_zero, kerC_zero, refB_zero, refC_zero, hx, hy, hz, EReal.coe_zero,
      kerOut_zero, refOut_zero]
  · rw [kerB_pos hpos, kerC_pos hpos, refB_pos hpos, refC_pos hpos]
    exact kerOut_eq_refOut _ _ x y z i j

/-- For finite inputs a, b, c the kernel's entry 3·i + j is the reference's entry (i, j). -/
theorem kerRow_eq_refEntry (a b c : ℝ) (i j : Fin 3) :
    kerRow (F := Ideal) ((a : EReal) : Ideal .f32) ((b : EReal) : Ideal .f32) ((c : EReal) : Ideal .f32) (flat i j)
      = refEntry (a : EReal) (b : EReal) (c : EReal) i j := by
  obtain ⟨e, he⟩ := epsW_finite
  rw [kerRow_eq, refEntry_eq, he, ← EReal.coe_add, ← EReal.coe_add, ← EReal.coe_add]
  exact row_real (a + e) (b + e) (c + e) i j

end Cert.RowAlgebra

end
-- ==== Proof.FiniteIn.lean ====
/-
  Finiteness out of the precondition.

  The precondition is "every element x of the input satisfies |x| < +∞", folded by ∧ over the whole array
  from the constant 1. If the fold is 1 then the compared bit is 1 at every index; at the extended reals
  |x| is max x (-x) and the constant's word denotes ⊤, so max x (-x) < ⊤, which fails at x = ⊤ and at x = ⊥
  (where -x = ⊤): x is a real.
-/
import proofs.«148425_j18983755448816_2_alg».proof.Pre_finite_inputs
import Idealize.ShloMosaic.PureOps.Ideal
import Idealize.ShloMosaic.Lib.ReduceAll
import Idealize.ShloMosaic.Lib.ValueIdx

noncomputable section

namespace Cert.FiniteIn

open Idealize.ShloMosaic Idealize.ShloMosaic.ValueIdx

/-- The word 0x7F800000 denotes +∞. -/
theorem ofBits_inf : Ideal.ofBits .f32 0x7F800000#32 = ⊤ := by
  simp [Ideal.ofBits, Ideal.ieee]

/-- An extended real whose absolute value max x (-x) is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- If the precondition holds of X then every element of X is a real. -/
theorem finite_of_pre [Cert.Pre_finite_inputs.Facts] (X : FVec Ideal Cert.Pre_finite_inputs.S4000000x3 .f32)
    (h : Cert.Pre_finite_inputs.fn (F := Ideal) X = fun _ => 1#1) (i : Cert.Pre_finite_inputs.S4000000x3.Idx) :
    ∃ r : ℝ, X i = (r : EReal) := by
  haveI : Subsingleton Cert.Pre_finite_inputs.S_.Idx := ⟨fun a b => funext fun d => d.elim0⟩
  have h0 := congrFun h ix0
  dsimp only [Cert.Pre_finite_inputs.fn] at h0
  have hb := Host.reduce_andi_all _ _ _ _ _ h0 i
  change Ideal.cmp .olt (max (X i) (-(X i))) (Ideal.ofBits .f32 0x7F800000#32) = 1#1 at hb
  rw [ofBits_inf] at hb
  have hb' : BitVec.ofBool (decide (max (X i) (-(X i)) < ⊤)) = 1#1 := hb
  refine real_of_abs_lt_top (X i) ?_
  by_contra hn
  rw [decide_eq_false hn] at hb'
  exact absurd hb' (by decide)

end Cert.FiniteIn

end
-- ==== Proof.Bridge.lean ====
/-
  The two idealized programs end with the same result.

  The kernel's result array is `Res` of its argument: row n laid out as a 3×3 matrix whose entry (i, j) is the
  kernel's row entry 3·i + j of the argument's row n (Whole). The reference's result at (n, i, j) is `Spec.refEntry`
  of that row (RefRow). The precondition makes every input a real number (FiniteIn), and on real rows the two row
  formulas agree (RowAlgebra): so from memories agreeing on the argument the two results are one array.
-/
import proofs.«148425_j18983755448816_2_alg».proof.Defs
import proofs.«148425_j18983755448816_2_alg».proof.Proof.ValueKI
import proofs.«148425_j18983755448816_2_alg».proof.Proof.BodyK
import proofs.«148425_j18983755448816_2_alg».proof.Proof.RefRow
import proofs.«148425_j18983755448816_2_alg».proof.Proof.RowAlgebra
import proofs.«148425_j18983755448816_2_alg».proof.Proof.FiniteIn
import proofs.«148425_j18983755448816_2_alg».proof.Proof.Cast933
import proofs.«148425_j18983755448816_2_alg».proof.Proof.Gen.ReferenceIdeal.Run
import proofs.«148425_j18983755448816_2_alg».proof.Proof.Gen.ReferenceIdeal.Read
import proofs.«148425_j18983755448816_2_alg».proof.Proof.Gen.Pre_finite_inputs
import proofs.«148425_j18983755448816_2_alg».proof.Proof.Gen.Kernel
import proofs.«148425_j18983755448816_2_alg».proof.Proof.Gen.KernelIdeal
import proofs.«148425_j18983755448816_2_alg».proof.Proof.Gen.ReferenceIdeal

noncomputable section

namespace Cert.Bridge

open Idealize.ShloMosaic Idealize.ShloMosaic.TcCoe Idealize.ShloMosaic.ValueIdx Idealize.SL.Sem

/-- On an array of real numbers the reference's result is the kernel's: entry (n, i, j) of the first is the
    reference's row formula of row n, of the second the kernel's row entry 3·i + j of row n, and the two formulas
    agree on real rows. -/
theorem ref_eq_res (X : (⟨Cert.ReferenceIdeal.S4000000x3, .f32⟩ : BufTy).Contents (Elt Ideal))
    (hfin : ∀ i, ∃ r : ℝ, X i = (r : EReal)) :
    Cert.ReferenceIdeal.Read.val_main_v56 (F := Ideal) X = Cert.KernelIdeal.Whole.Res (F := Ideal) X := by
  funext idx
  obtain ⟨n, i, j, rfl⟩ : ∃ (n : Fin 4000000) (i j : Fin 3), idx = ix3 n i j := ⟨_, _, _, eq_ix3 idx⟩
  obtain ⟨a, ha⟩ := hfin (ix2 n (0 : Fin 3))
  obtain ⟨b, hb⟩ := hfin (ix2 n (1 : Fin 3))
  obtain ⟨c, hc⟩ := hfin (ix2 n (2 : Fin 3))
  rw [Cert.ReferenceIdeal.RefValue.ref_entry, ha, hb, hc, ← Cert.RowAlgebra.kerRow_eq_refEntry]
  rw [Cert.KernelIdeal.Whole.Res_apply, ha, hb, hc]

end Cert.Bridge

/-! ## The claims -/

namespace Cert.Proof.Claims

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to restate. -/
theorem preserves : Cert.preserves_Kernel_KernelIdeal := trivial

/-- Both programs run; the kernel's result buffer ends at `Res` of its argument, the reference's at its composed term
    of the same argument, which on the finite inputs the precondition grants is that same array. -/
theorem algebraic : Cert.algebraic_KernelIdeal_ReferenceIdeal := by
  intro m ρ m' ρ' hpre hagree
  refine ⟨fun c => Cert.KernelIdeal.Whole.Res (F := Ideal) (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, hagree c]
  exact Cert.Bridge.ref_eq_res _ (fun i => Cert.FiniteIn.finite_of_pre _ (hpre c) i)

end Cert.Proof.Claims

end
-- ==== Proof.lean ====
/- The proof of `Cert.Claim` (proofs.«148425_j18983755448816_2_alg».proof.Defs).

   The kernel maps each row (a, b, c) of a [4000000, 3] array to a 3×3 matrix I + B·K + C·K², K the skew-symmetric
   matrix of the row shifted by a small constant, B and C trigonometric coefficients of the shifted row's length;
   the reference computes the same matrix by forming K and multiplying it with itself. The modules:
   Spec (the two row formulas), PayRowK / PayRowKI (the kernel body's store read at an entry, for the printed
   program and for its idealization), BodyK / BodyKI (the frame: the pipelined region over 326 points whose last
   block overhangs the arrays, and the reshape after it), ValueKI (the idealized kernel's result as one function
   of its argument), RefRow (the reference read at an entry), RowAlgebra (the two formulas agree on real rows, the
   zero row included), FiniteIn (the precondition makes every input a real number), Cast933 (a row of nine read
   as a 3×3 matrix), Bridge (the claims). -/
import proofs.«148425_j18983755448816_2_alg».proof.Defs
import proofs.«148425_j18983755448816_2_alg».proof.Proof.Bridge
import proofs.«148425_j18983755448816_2_alg».proof.Proof.Gen.Kernel
import proofs.«148425_j18983755448816_2_alg».proof.Proof.Gen.KernelIdeal
import proofs.«148425_j18983755448816_2_alg».proof.Proof.Gen.ReferenceIdeal
import proofs.«148425_j18983755448816_2_alg».proof.Proof.Gen.Pre_finite_inputs
import proofs.«148425_j18983755448816_2_alg».proof.Proof.Gen.ReferenceIdeal.Run
import proofs.«148425_j18983755448816_2_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
